-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S5000x128 : Shape := ⟨2, ![5000, 128]⟩
abbrev S5000x1 : Shape := ⟨2, ![5000, 1]⟩
abbrev S1700000x128 : Shape := ⟨2, ![1700000, 128]⟩
abbrev S1x128 : Shape := ⟨2, ![1, 128]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩

abbrev nBuf : Space → Nat
  | .hbm => 64
  | .vmem => 15
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S128x128, .bf16⟩
  | .hbm, ⟨29, _⟩ => ⟨S128x64, .bf16⟩
  | .hbm, ⟨30, _⟩ => ⟨S100000x128, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000x128, .f32⟩
  | .hbm, ⟨40, _⟩ => ⟨S_, .f32⟩
  | .hbm, ⟨41, _⟩ => ⟨S100000x128, .f32⟩
  | .hbm, ⟨42, _⟩ => ⟨S1700000x1, .i32⟩
  | .hbm, ⟨43, _⟩ => ⟨S100000x128, .f32⟩
  | .hbm, ⟨44, _⟩ => ⟨S1x128, .f32⟩
  | .hbm, ⟨45, _⟩ => ⟨S100000x64, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000x64, .f32⟩
  | .hbm, ⟨55, _⟩ => ⟨S_, .f32⟩
  | .hbm, ⟨56, _⟩ => ⟨S100000x64, .f32⟩
  | .hbm, ⟨57, _⟩ => ⟨S1700000x1, .i32⟩
  | .hbm, ⟨58, _⟩ => ⟨S100000x64, .f32⟩
  | .hbm, ⟨59, _⟩ => ⟨S100000x64, .f32⟩
  | .hbm, ⟨60, _⟩ => ⟨S100000x64, .f32⟩
  | .hbm, ⟨61, _⟩ => ⟨S1x64, .f32⟩
  | .hbm, ⟨62, _⟩ => ⟨S100000x64, .f32⟩
  | .hbm, ⟨63, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .bf16⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x64, .bf16⟩
  | .local _ .vmem, ⟨13, _⟩ => ⟨S5000x64, .f32⟩
  | .local _ .vmem, ⟨14, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  bitsLt_bf16_f32 : FTy.bits .bf16 < FTy.bits .f32
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .bf16 = 32 ∨ (Rect.block (s := S128x64) S128x64.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 93
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .i1⟩
  | .hbm, ⟨69, _⟩ => ⟨S_, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S100000x64, .f32⟩
  | .hbm, ⟨74, _⟩ => ⟨S_, .i32⟩
  | .hbm, ⟨75, _⟩ => ⟨S1700000, .i32⟩
  | .hbm, ⟨76, _⟩ => ⟨S1700000, .i1⟩
  | .hbm, ⟨77, _⟩ => ⟨S_, .i32⟩
  | .hbm, ⟨78, _⟩ => ⟨S1700000, .i32⟩
  | .hbm, ⟨79, _⟩ => ⟨S1700000, .i32⟩
  | .hbm, ⟨80, _⟩ => ⟨S1700000, .i32⟩
  | .hbm, ⟨81, _⟩ => ⟨S1700000x1, .i32⟩
  | .hbm, ⟨82, _⟩ => ⟨S1700000x64, .f32⟩
  | .hbm, ⟨83, _⟩ => ⟨S1700000x1, .f32⟩
  | .hbm, ⟨84, _⟩ => ⟨S1700000x64, .f32⟩
  | .hbm, ⟨85, _⟩ => ⟨S1700000x64, .f32⟩
  | .hbm, ⟨86, _⟩ => ⟨S_, .f32⟩
  | .hbm, ⟨87, _⟩ => ⟨S100000x64, .f32⟩
  | .hbm, ⟨88, _⟩ => ⟨S1700000x1, .i32⟩
  | .hbm, ⟨89, _⟩ => ⟨S100000x64, .f32⟩
  | .hbm, ⟨90, _⟩ => ⟨S1x64, .f32⟩
  | .hbm, ⟨91, _⟩ => ⟨S100000x64, .f32⟩
  | .hbm, ⟨92, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_9 : Ref sig .tc := ⟨.hbm, 66, rfl⟩
abbrev main_v47 : Ref sig .tc := ⟨.hbm, 67, rfl⟩
abbrev main_v48 : Ref sig .tc := ⟨.hbm, 68, rfl⟩
abbrev main_cst_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_c_11 : Ref sig .tc := ⟨.hbm, 74, rfl⟩
abbrev main_v53 : Ref sig .tc := ⟨.hbm, 75, rfl⟩
abbrev main_v54 : Ref sig .tc := ⟨.hbm, 76, rfl⟩
abbrev main_c_12 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_13 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelRun.lean ====
/-
  THE KERNEL PROGRAM'S RUN, WITH EVERY BUFFER KEPT.

  The program is seven segments: three stretches of host operations, the first call, a stretch, the second call, a
  last stretch. The buffer contents at each boundary are a fold from the launch memory: a stretch applies its
  operations one after another; a call leaves each of its arrays at what its grid points' write-backs leave and every
  other buffer as it was. The launch rule for a list of segments gives: every weakly fair execution terminates, nothing
  faulting, and EVERY buffer that outlives the calls ends at the last boundary's contents `W7`. The frame keeps of this
  only the argument arrays; the value needs the result array too, so the rule is applied here with the whole statement
  kept, and the result and the arguments are then read off it.

  What the rule asks for, in order: that the program is the run of its segments; that no call appears twice; the ghost
  state the calls' cells start from; a thread state for every boundary — all unscoped buffers held at that boundary's
  contents, the generator register at some state, nothing owed — with each segment's post entailing the next one's
  pre; that the launch memory gives the first thread state; and that the last thread state, read against a final
  memory, says that memory holds `W7` at every unscoped buffer.
-/
import proofs.«179346_j17454747091291_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the rule's implicit arguments are found by unifying its conclusion with this one, which takes unfolding plain
-- definitions in a metavariable's type
set_option backward.isDefEq.respectTransparency.types false in
/-- Every weakly fair execution of the program terminates, nothing faulting, with every unscoped buffer of every core
    at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    -- the program is the run of its segments
    (fun c Q => by rw [main_run m ρ c])
    -- the two calls are different pipelines
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    -- the ghost state at launch is the pipelines' initial cells; no core carries anything extra
    (hu₀ := by
      iintro Hcells
      imodintro
      isplitl [Hcells]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hcells
      iapply (show (BI.emp : sProp 𝕄) ⊢ bigSep Finset.univ (fun _ : Dev nD => (BI.emp : sProp 𝕄)) from by
        rw [BI.bigSep_emp_const])
      iempintro)
    (T₀ := fun c => iprop(StableHlo.held (c : Thread nD τ) (Pipeline.ucRefs τ sig) (W0 m ρ c) ∗ R c)) (Tₙ := Tₙ m ρ)
    -- each segment's post is the next one's pre as stated; the last post regroups into the last thread state and the
    -- core owing nothing
    (hch := ⟨fun _ => .rfl, fun _ => .rfl, fun _ => .rfl, fun _ => .rfl, fun _ => .rfl, fun _ => .rfl, fun _ => .rfl,
      fun c => by
        dsimp only [Pipeline.Seg.post, hseg, Pipeline.HostSeg.ofOps]
        iintro ⟨Hheld, Hreg, Howes⟩
        isplitl [Hheld Hreg]
        · isplitl [Hheld]
          · iexact Hheld
          iexact Hreg
        iexact Howes⟩)
    -- the launch memory holds the first boundary's contents; the register is at its launch state; nothing is owed
    (hinit := by
      refine Pipeline.initEach L lv fun c => ?_
      rw [show unscopedBufs c (fun b => m ((c : Thread nD τ).loc b))
            = StableHlo.held (c : Thread nD τ) (Pipeline.ucRefs τ sig) (W0 m ρ c)
          from Pipeline.unscopedBufs_held c (W0 m ρ c)]
      iintro ⟨⟨Hheld, -, Howes, -, Hreg, -⟩, -⟩
      imodintro
      isplitl [Hheld]
      · iexact Hheld
      isplitl [Hreg]
      · iexists _
        iexact Hreg
      iexists ∅
      iexact Howes)
    (QY := fun c s => ∀ b ∈ Pipeline.ucRefs τ sig, s.mem (((c : Thread nD τ)).1, b) = W7 m ρ c b)
    -- buffers held at `W7`, read against the final memory
    (hfin := fun c s' => by
      iintro ⟨⟨Hheld, -⟩, Hstate⟩
      unfold StableHlo.held
      imodintro
      iapply (pointsTo_read_all (Pipeline.ucRefs τ sig) (fun b => (((c : Thread nD τ)).1, b)) (W7 m ρ c) s')
      isplitl [Hheld] <;> iassumption)
    (hQ := fun s h c b hb => h c b hb)

/-- The result array ends at the last boundary's contents of its buffer, and the argument arrays end as launched (no
    stretch and no call writes an argument, so the fold at an argument's buffer walks back to the launch memory). -/
theorem run_fold : θ_run defs (onTc (τ := τ) (main (F := F))) ⟨m, fun _ => 0, ρ⟩ (fun r => ∀ c : Dev nD,
      r.2.mem ((c.tc : Thread nD τ).loc main_v45) = W7 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨h c _ (mem_uc main_v45 (by decide)),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c)⟩)
    (run_all m ρ)

end Cert.KernelIdeal.RunValue

end
-- ==== Proof.LibHostWalk.lean ====
/-
  Reading a buffer through a straight line of host operations: each operation's result at its own result buffer is
  its function of its operands' contents, and any other buffer keeps what it held. One pass rewrites a read at the end
  of the line into the composed term of the contents the line started from. A two-piece concatenation is restated
  with its two pieces as plain arguments, so that the pass also rewrites the reads inside the pieces.
-/
import Idealize.ShloMosaic.Lib.StableHlo.Run

set_option maxRecDepth 16384

noncomputable section

namespace Cert.HostWalk

open Idealize.ShloMosaic Idealize.ShloMosaic.StableHlo

/-- The concatenation of two pieces along an axis, the pieces as arguments. -/
def cat2 {α : Type} (t : Shape) (a : Fin t.rank) (s₁ s₂ : Shape) (x₁ : s₁.Idx → α) (x₂ : s₂.Idx → α)
    (h : Shape.Concatenates [s₁, s₂] t a) : t.Idx → α :=
  concatenate t a [⟨s₁, x₁⟩, ⟨s₂, x₂⟩] h

theorem concatenate_pair {α : Type} (t : Shape) (a : Fin t.rank) (s₁ s₂ : Shape) (x₁ : s₁.Idx → α) (x₂ : s₂.Idx → α)
    (h : Shape.Concatenates [s₁, s₂] t a) :
    concatenate t a [⟨s₁, x₁⟩, ⟨s₂, x₂⟩] h = cat2 t a s₁ s₂ x₁ x₂ h := rfl

/-- Reads a buffer through the fold of a line of host operations (and through whatever further rewriting rules are
    given for the boundaries between lines). -/
macro "walk_back" "[" ls:Lean.Parser.Tactic.simpLemma,* "]" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      TRef.nullary, TRef.unary, TRef.binary, TRef.ternary, TRef.quaternary, TRef.reshape, TRef.toBuf, TRef.ofBuf, TRef.of, cast_eq,
      concatenate_pair, $ls,*]))

end Cert.HostWalk

end
-- ==== Proof.KernelReadA.lean ====
/-
  THE KERNEL PROGRAM'S BUFFERS WHEN THE FIRST CALL IS ENTERED.

  Before its first call the program computes, from the edge list alone, the source and target index vectors (the
  edges followed by one self-loop per node), the degree of every node (a scatter-add of ones at the targets), and the
  normaliser `1/√deg` where the degree is positive, `0` elsewhere; it lays the normaliser out as a column and changes
  the two weight matrices' float format. The reference program begins with the same operations in the same order, so
  each of these buffers holds the reference's stage of the same name of the edge list: the index vectors `v3` / `v6`,
  the normaliser `v14`.
-/
import proofs.«179346_j17454747091291_2_alg».proof.Proof.Gen.KernelIdeal.Frame
import proofs.«179346_j17454747091291_2_alg».proof.Proof.RefReadP
import proofs.«179346_j17454747091291_2_alg».proof.Proof.LibHostWalk

set_option maxRecDepth 16384

noncomputable section

namespace Cert.KernelIdeal.ReadBack

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-- The edge list as launched. -/
abbrev edges : IVec S2x1600000 32 := m ((c : Thread nD τ).loc main_arg1)
/-- The node features, the two weight matrices and the two biases as launched. -/
abbrev feats : FVec Ideal S100000x128 .f32 := m ((c : Thread nD τ).loc main_arg0)
abbrev w1 : FVec Ideal S128x128 .f32 := m ((c : Thread nD τ).loc main_arg2)
abbrev b1 : FVec Ideal S128 .f32 := m ((c : Thread nD τ).loc main_arg3)
abbrev w2 : FVec Ideal S128x64 .f32 := m ((c : Thread nD τ).loc main_arg4)
abbrev b2 : FVec Ideal S64 .f32 := m ((c : Thread nD τ).loc main_arg5)

/-! ## After the first stretch -/

theorem W1_v3 : W1 m ρ c (Proc.devRef .tc main_v3) = Cert.ReferenceIdeal.ReadP.val_main_v3 (F := Ideal) (edges m c) := by
  show StableHlo.after hostOps0 (W0 m ρ c) (Proc.devRef .tc main_v3) = _
  walk_back [hostOps0] <;> rfl

theorem W1_v6 : W1 m ρ c (Proc.devRef .tc main_v6) = Cert.ReferenceIdeal.ReadP.val_main_v6 (F := Ideal) (edges m c) := by
  show StableHlo.after hostOps0 (W0 m ρ c) (Proc.devRef .tc main_v6) = _
  walk_back [hostOps0] <;> rfl

theorem W1_v12 : W1 m ρ c (Proc.devRef .tc main_v12) = Cert.ReferenceIdeal.ReadP.val_main_v12 (F := Ideal) (edges m c) := by
  show StableHlo.after hostOps0 (W0 m ρ c) (Proc.devRef .tc main_v12) = _
  walk_back [hostOps0] <;> rfl

theorem W1_v13 : W1 m ρ c (Proc.devRef .tc main_v13) = Cert.ReferenceIdeal.ReadP.val_main_v13 (F := Ideal) (edges m c) := by
  show StableHlo.after hostOps0 (W0 m ρ c) (Proc.devRef .tc main_v13) = _
  walk_back [hostOps0] <;> rfl

theorem W1_cst_2 : W1 m ρ c (Proc.devRef .tc main_cst_2) = Cert.ReferenceIdeal.ReadP.val_main_cst_2 (F := Ideal) := by
  show StableHlo.after hostOps0 (W0 m ρ c) (Proc.devRef .tc main_cst_2) = _
  walk_back [hostOps0] <;> rfl

/-! ## After the inlined selection: the normaliser -/

theorem W2_v14 : W2 m ρ c (Proc.devRef .tc main_v14) = Cert.ReferenceIdeal.ReadP.val_main_v14 (F := Ideal) (edges m c) := by
  show StableHlo.after hostOps0_1 (W1 m ρ c) (Proc.devRef .tc main_v14) = _
  walk_back [hostOps0_1, hostOps0] <;> rfl

/-! ## When the first call is entered -/

/-- The normaliser as a column. -/
abbrev normCol : FVec Ideal S100000x1 .f32 :=
  shapeCast S100000x1 (Cert.ReferenceIdeal.ReadP.val_main_v14 (F := Ideal) (edges m c)) shapeCasts_S100000_S100000x1

theorem W3_v15 : W3 m ρ c (Proc.devRef .tc main_v15) = normCol m c := by
  show StableHlo.after hostOps0_2 (W2 m ρ c) (Proc.devRef .tc main_v15) = _
  walk_back [hostOps0_2, hostOps0_1, hostOps0] <;> rfl

/-- The first weight matrix after its change of float format (the identity on the extended reals). -/
abbrev weights1 : FVec Ideal S128x128 .bf16 :=
  truncf (F := Ideal) .bf16 (w1 m c) bitsLt_bf16_f32
/-- The second weight matrix after its change of float format. -/
abbrev weights2 : FVec Ideal S128x64 .bf16 :=
  truncf (F := Ideal) .bf16 (w2 m c) bitsLt_bf16_f32

theorem W3_v16 : W3 m ρ c (Proc.devRef .tc main_v16) = weights1 m c := by
  show StableHlo.after hostOps0_2 (W2 m ρ c) (Proc.devRef .tc main_v16) = _
  walk_back [hostOps0_2, hostOps0_1, hostOps0] <;> rfl

theorem W3_v17 : W3 m ρ c (Proc.devRef .tc main_v17) = weights2 m c := by
  show StableHlo.after hostOps0_2 (W2 m ρ c) (Proc.devRef .tc main_v17) = _
  walk_back [hostOps0_2, hostOps0_1, hostOps0] <;> rfl

theorem W3_arg0 : W3 m ρ c (Proc.devRef .tc main_arg0) = m ((c : Thread nD τ).loc main_arg0) := by
  show StableHlo.after hostOps0_2 (W2 m ρ c) (Proc.devRef .tc main_arg0) = _
  walk_back [hostOps0_2, hostOps0_1, hostOps0] <;> rfl

theorem W3_arg3 : W3 m ρ c (Proc.devRef .tc main_arg3) = m ((c : Thread nD τ).loc main_arg3) := by
  show StableHlo.after hostOps0_2 (W2 m ρ c) (Proc.devRef .tc main_arg3) = _
  walk_back [hostOps0_2, hostOps0_1, hostOps0] <;> rfl

theorem W3_arg5 : W3 m ρ c (Proc.devRef .tc main_arg5) = m ((c : Thread nD τ).loc main_arg5) := by
  show StableHlo.after hostOps0_2 (W2 m ρ c) (Proc.devRef .tc main_arg5) = _
  walk_back [hostOps0_2, hostOps0_1, hostOps0] <;> rfl

theorem W3_v3 : W3 m ρ c (Proc.devRef .tc main_v3) = Cert.ReferenceIdeal.ReadP.val_main_v3 (F := Ideal) (edges m c) := by
  show StableHlo.after hostOps0_2 (W2 m ρ c) (Proc.devRef .tc main_v3) = _
  walk_back [hostOps0_2, hostOps0_1, hostOps0] <;> rfl

theorem W3_v6 : W3 m ρ c (Proc.devRef .tc main_v6) = Cert.ReferenceIdeal.ReadP.val_main_v6 (F := Ideal) (edges m c) := by
  show StableHlo.after hostOps0_2 (W2 m ρ c) (Proc.devRef .tc main_v6) = _
  walk_back [hostOps0_2, hostOps0_1, hostOps0] <;> rfl

end Cert.KernelIdeal.ReadBack

end
-- ==== Proof.LibPlainDot.lean ====
/-
  A plain matrix product read at an index, on the extended reals.

  For dimension numbers that contract the left operand's second axis against the right operand's
  first, with no batch axes (an `M×K` matrix times a `K×N` matrix), entry `(p, c)` of the product is
  `Σ_{q < K} l[p, q] · r[q, c]`. The library states a product as a sum over the contraction shape's
  multi-indices; here that sum is re-indexed by the one contracted coordinate, once, for every record
  of this form and every extent.
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat} (d : DotDims ⟨2, ![M, K]⟩ ⟨2, ![K, N]⟩ ⟨2, ![M, N]⟩)

/-- The dimension numbers of a plain product: contract left axis 1 with right axis 0, keep left axis 0 and
    right axis 1 in that order, no batch axes. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

/-- The contraction shape has one axis. -/
theorem contr_rank (h : IsPlain d) : d.contr.rank = 1 := by rw [d.rank_contr, h.lc]; rfl

/-- That axis has the shared extent `K`. -/
theorem contr_size (h : IsPlain d) : d.contr.size ⟨0, by rw [contr_rank h]; exact Nat.one_pos⟩ = K := by
  rw [d.size_contr 0 (by rw [h.lc]; exact Nat.one_pos), List.getElem_of_eq h.lc]
  rfl

/-- A coordinate of an index depends only on the axis number. -/
private theorem coord_congr {s : Shape} (j : s.Idx) (p q : Nat) (hp : p < s.rank) (hq : q < s.rank) (e : p = q) :
    (j ⟨p, hp⟩).val = (j ⟨q, hq⟩).val := by subst e; rfl

/-- The left operand is read at the result's row. -/
theorem lhs_row (h : IsPlain d) (j : (⟨2, ![M, N]⟩ : Shape).Idx) (k : d.contr.Idx) : (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by rw [h.lb, h.ln]; rfl)

/-- The right operand is read at the result's column. -/
theorem rhs_col (h : IsPlain d) (j : (⟨2, ![M, N]⟩ : Shape).Idx) (k : d.contr.Idx) : (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by rw [h.lb, h.ln, h.rn]; rfl)

/-- The library's sum over contraction multi-indices is the sum over the contracted coordinate. -/
theorem sum_contr (h : IsPlain d) (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ q : Fin K, l (ix2 (j 0) q) * r (ix2 q (j 1)) := by
  have hr : d.contr.rank = 1 := contr_rank h
  have hs : d.contr.size ⟨0, by omega⟩ = K := contr_size h
  rw [← Equiv.sum_comp (contrEquiv1 d K hr hs).symm]
  refine Finset.sum_congr rfl fun q _ => ?_
  have hq := contrEquiv1_symm_val d K hr hs q
  have el : d.lhsIdx j ((contrEquiv1 d K hr hs).symm q) = ix2 (j 0) q := funext fun a => Fin.ext (by
    match a with
    | ⟨0, _⟩ => exact lhs_row h j _
    | ⟨1, _⟩ => exact (d.lhsIdx_val_of_single h.lc j _).trans hq)
  have er : d.rhsIdx j ((contrEquiv1 d K hr hs).symm q) = ix2 q (j 1) := funext fun a => Fin.ext (by
    match a with
    | ⟨0, _⟩ => exact (d.rhsIdx_val_of_single h.rc j _).trans hq
    | ⟨1, _⟩ => exact rhs_col h j _)
  rw [el, er]
  rfl

/-- A `tpu.matmul` into a zero accumulator, at entry `(p, c)`. -/
theorem matmul_zero_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    matmul d prec l r (constant ⟨2, ![M, N]⟩ .f32 0x00000000#32) (ix2 p c) = ∑ q : Fin K, l (ix2 p q) * r (ix2 q c) :=
  (Ideal.matmul_constant_zero_apply d prec l r (ix2 p c)).trans (sum_contr h l r (ix2 p c))

/-- The host's `dot_general`, at entry `(p, c)`. -/
theorem dotGeneral_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    Host.dotGeneral d prec l r (ix2 p c) = ∑ q : Fin K, l (ix2 p q) * r (ix2 q c) :=
  (Ideal.dotGeneral_apply d prec .single l r (ix2 p c)).trans (sum_contr h l r (ix2 p c))

end Cert.PlainDot

end
-- ==== Proof.LibColumn.lean ====
/-
  A vector as a column. A length-`a` vector reshaped to `[a, 1]` reads, at `(i, 0)`, the vector at `i`; and an
  `[a, 1]` column broadcast across `b` columns reads, at `(p, c)`, the column at `(p, 0)`. (The companions for
  a row `[1, a]` are the library's.)
-/
import Idealize.ShloMosaic.Lib.ValueLayout
import Idealize.ShloMosaic.Lib.Pipeline.Value

noncomputable section

namespace Cert.Column

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Column

end
-- ==== Proof.Region0Value.lean ====
/-
  THE FIRST CALL'S RESULT AS ONE ARRAY.

  The call's grid has 20 points; point `t` reads rows `5000·t … 5000·t + 4999` of the node features `x : [100000, 128]`
  and of the normaliser column `dc : [100000, 1]`, the whole weight matrix `w : [128, 128]`, and writes the same rows
  of its output. The body multiplies its block of `x` by `w` (a product into a zero accumulator, so a plain sum over
  the contracted coordinate) and scales row `p` of the product by the normaliser of that row. So every entry of the
  output depends on one row of `x`, one column of `w` and one entry of `dc` only, and the 20 row blocks tile the
  array: whatever the region finds in its three input arrays, its output array ends as
      (n, c)  ↦  (Σ_q x[n, q] · w[q, c]) · dc[n, 0].
-/
import proofs.«179346_j17454747091291_2_alg».proof.Proof.Gen.KernelIdeal.Frame
import proofs.«179346_j17454747091291_2_alg».proof.Proof.LibPlainDot
import proofs.«179346_j17454747091291_2_alg».proof.Proof.LibColumn
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The product of the feature rows with the weights, each row scaled by its node's normaliser. -/
def scaledProduct (x : FVec Ideal S100000x128 .f32) (w : FVec Ideal S128x128 .bf16) (dc : FVec Ideal S100000x1 .f32) :
    FVec Ideal S100000x128 .f32 :=
  fun i => (∑ q : Fin 128, x (ix2 (i 0) q) * w (ix2 q (i 1))) * dc (ix2 (i 0) (0 : Fin 1))

theorem scaledProduct_apply (x : FVec Ideal S100000x128 .f32) (w : FVec Ideal S128x128 .bf16) (dc : FVec Ideal S100000x1 .f32)
    (n : Fin 100000) (c : Fin 128) :
    scaledProduct x w dc (ix2 n c) = (∑ q : Fin 128, x (ix2 n q) * w (ix2 q c)) * dc (ix2 n (0 : Fin 1)) := rfl

/-- The body's stored value at `(p, c)` of its block: the plain product of the block's row `p` with column `c` of the
    weights, times the normaliser of row `p`. (The change of float format is the identity on the extended reals.) -/
theorem payload_apply (x0 : Vec Ideal S5000x128 .f32) (x1 : Vec Ideal S128x128 .bf16) (x2 : Vec Ideal S5000x1 .f32)
    (p : Fin 5000) (c : Fin 128) :
    k0_pay1 (F := Ideal) x0 x1 x2 (ix2 p c) = (∑ q : Fin 128, x0 (ix2 p q) * x1 (ix2 q c)) * x2 (ix2 p (0 : Fin 1)) := by
  unfold k0_pay1
  rw [mulf_apply, Cert.PlainDot.matmul_zero_apply ⟨rfl, rfl, rfl, rfl, rfl, rfl⟩, Cert.Column.broadcastTo_a1_ab_apply]
  simp only [truncf_apply, shapeCast_self]

theorem zero_offsets : (![0, 0] : Fin 2 → Nat) = fun _ => 0 := funext fun a => by fin_cases a <;> rfl

/-- The printed index maps, decided over the grid: the feature window, the normaliser window and the output window
    are all at row block `t`, column block 0; the weight window stays at block (0, 0). -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- WHAT POINT `t` WRITES BACK is block `t` of the scaled product of the arrays as the region finds them. -/
theorem flushed_eq (c : Dev nD) (t : Fin cfg0.N) :
    (dat0 V c).flushed 3 t
      = ((cfg0.win 3).blk t).view.read (Elt Ideal) (scaledProduct (V c main_arg0) (V c main_v16) (V c main_v15)) := by
  show (cfg0.win 3).cut (grid0.coords t) ((dat0 V c).after 3 t) = _
  rw [after0_3]
  unfold out0_3
  rw [View.canon_unit_zero zero_offsets]
  simp only [View.ld_unit_zero (S := S5000x128) zero_offsets, View.ld_unit_zero (S := S128x128) zero_offsets,
    View.ld_unit_zero (S := S5000x1) zero_offsets]
  obtain ⟨e00, e01, e10, e11, e20, e21, e30, e31⟩ := index_facts t
  funext j
  have hj0 : (j 0).val < 5000 := (j 0).isLt
  have hj1 : (j 1).val < 128 := (j 1).isLt
  refine (congrArg (k0_pay1 (F := Ideal) (iblk0 V c 0 t) (iblk0 V c 1 t) (iblk0 V c 2 t)) (eq_ix2 j)).trans ?_
  refine (payload_apply (iblk0 V c 0 t) (iblk0 V c 1 t) (iblk0 V c 2 t) (j 0) (j 1)).trans ?_
  show (fun (X : FVec Ideal S100000x128 .f32) (W : FVec Ideal S128x128 .bf16) (D : FVec Ideal S100000x1 .f32) =>
        (∑ q : Fin 128, X (((cfg0.win 0).blk t).view.emb (ix2 (j 0) q)) * W (((cfg0.win 1).blk t).view.emb (ix2 q (j 1))))
          * D (((cfg0.win 2).blk t).view.emb (ix2 (j 0) (0 : Fin 1))))
        (V c main_arg0) (V c main_v16) (V c main_v15)
      = scaledProduct (V c main_arg0) (V c main_v16) (V c main_v15) (((cfg0.win 3).blk t).view.emb j)
  have hx : ∀ q : Fin 128, ((cfg0.win 0).blk t).view.emb (ix2 (j 0) q)
      = ix2 ((((cfg0.win 3).blk t).view.emb j) 0) q := by
    intro q; funext a; apply Fin.ext
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 128 + 1 * q.val = q.val; omega
  have hw : ∀ q : Fin 128, ((cfg0.win 1).blk t).view.emb (ix2 q (j 1))
      = ix2 q ((((cfg0.win 3).blk t).view.emb j) 1) := by
    intro q; funext a; apply Fin.ext
    match a with
    | ⟨0, _⟩ => show win0_1.index t (0 : Fin 2) * 128 + 1 * q.val = q.val; omega
    | ⟨1, _⟩ => show win0_1.index t (1 : Fin 2) * 128 + 1 * (j 1).val = win0_3.index t (1 : Fin 2) * 128 + 1 * (j 1).val; omega
  have hd : ((cfg0.win 2).blk t).view.emb (ix2 (j 0) (0 : Fin 1))
      = ix2 ((((cfg0.win 3).blk t).view.emb j) 0) (0 : Fin 1) := by
    funext a; apply Fin.ext
    match a with
    | ⟨0, _⟩ => show win0_2.index t (0 : Fin 2) * 5000 + 1 * (j 0).val = win0_3.index t (0 : Fin 2) * 5000 + 1 * (j 0).val; omega
    | ⟨1, _⟩ => show win0_2.index t (1 : Fin 2) * 1 + 1 * 0 = 0; omega
  simp only [hx, hw, hd]
  rfl

/-- An index of the output array is in point `t`'s block iff each coordinate is in the block's range on its axis. -/
theorem mem_blk (t : Fin cfg0.N) (i : S100000x128.Idx) :
    i ∈ ((cfg0.win 3).blk t).view.set ↔ ∀ a : Fin 2,
      win0_3.index t a * S5000x128.size a ≤ (i a).val ∧ (i a).val < win0_3.index t a * S5000x128.size a + S5000x128.size a := by
  show i ∈ ((View.whole main_v18).slice (win0_3.rect t)).set ↔ _
  rw [View.set_slice_whole, Rect.mem_set_unit]
  exact Iff.rfl

/-- The 20 row blocks tile the output array: row `r` is in the block of point `r / 5000`. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  refine ⟨⟨(i 0).val / 5000, by rw [hN]; omega⟩, flush0_3 _, ?_⟩
  rw [mem_blk]
  obtain ⟨-, -, -, -, -, -, e30, e31⟩ := index_facts ⟨(i 0).val / 5000, by rw [hN]; omega⟩
  intro a
  match a with
  | ⟨0, _⟩ =>
    show win0_3.index _ (0 : Fin 2) * 5000 ≤ (i 0).val ∧ (i 0).val < win0_3.index _ (0 : Fin 2) * 5000 + 5000
    rw [e30]; dsimp only; omega
  | ⟨1, _⟩ =>
    show win0_3.index _ (1 : Fin 2) * 128 ≤ (i 1).val ∧ (i 1).val < win0_3.index _ (1 : Fin 2) * 128 + 128
    rw [e31]; omega

/-- THE OUTPUT ARRAY after the call: the scaled product of the arrays as the region finds them. -/
theorem final (c : Dev nD) :
    (dat0 V c).arrAt 3 cfg0.N = scaledProduct (V c main_arg0) (V c main_v16) (V c main_v15) :=
  (dat0 V c).arrAt_eq_of_cover 3 _ (fun t _ => flushed_eq V c t) cover

end Cert.KernelIdeal.Region0

end
-- ==== Proof.Region1Value.lean ====
/-
  THE SECOND CALL'S RESULT AS ONE ARRAY.

  The call's grid has 20 points; point `t` reads rows `5000·t … 5000·t + 4999` of the aggregated features
  `a : [100000, 128]` and of the normaliser column `dc : [100000, 1]`, the whole bias row `b : [1, 128]` and the whole
  weight matrix `w : [128, 64]`, and writes the same rows of its output. The body scales row `p` of its block of `a`
  by the normaliser of that row, adds the bias, applies the leaky activation `y ↦ y` where `y ≥ 0`, `slope · y`
  elsewhere, multiplies by `w` (a product into a zero accumulator: a plain sum over the contracted coordinate) and
  scales row `p` of the product by the row's normaliser again. Every entry of the output depends on one row of `a`,
  one entry of `dc`, the bias row and one column of `w` only, and the 20 row blocks tile the array: whatever the region
  finds in its four input arrays, its output array ends as
      (n, c)  ↦  (Σ_q leaky (a[n, q] · dc[n, 0] + b[0, q]) · w[q, c]) · dc[n, 0].
-/
import proofs.«179346_j17454747091291_2_alg».proof.Proof.Gen.KernelIdeal.Frame
import proofs.«179346_j17454747091291_2_alg».proof.Proof.LibPlainDot
import proofs.«179346_j17454747091291_2_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The leaky activation on the extended reals: `y` where `y ≥ 0`, the slope word's value times `y` elsewhere. The
    two float words (zero and the slope) are kept as words: both programs carry the same ones. -/
def leaky (y : EReal) : EReal :=
  Scalar.select (FloatOps.cmpf (F := Ideal) (φ := .f32) .oge y (Ideal.ofBits .f32 0x00000000#32)) y
    (Ideal.ofBits .f32 0x3E6AAAAB#32 * y)

/-- The hidden layer's rows — aggregated features scaled by the node's normaliser, plus bias, activated — times the
    weights, each row scaled by its node's normaliser. -/
def hiddenProduct (a : FVec Ideal S100000x128 .f32) (dc : FVec Ideal S100000x1 .f32) (b : FVec Ideal S1x128 .f32)
    (w : FVec Ideal S128x64 .bf16) : FVec Ideal S100000x64 .f32 :=
  fun i => (∑ q : Fin 128, leaky (a (ix2 (i 0) q) * dc (ix2 (i 0) (0 : Fin 1)) + b (ix2 (0 : Fin 1) q)) * w (ix2 q (i 1)))
    * dc (ix2 (i 0) (0 : Fin 1))

theorem hiddenProduct_apply (a : FVec Ideal S100000x128 .f32) (dc : FVec Ideal S100000x1 .f32) (b : FVec Ideal S1x128 .f32)
    (w : FVec Ideal S128x64 .bf16) (n : Fin 100000) (c : Fin 64) :
    hiddenProduct a dc b w (ix2 n c)
      = (∑ q : Fin 128, leaky (a (ix2 n q) * dc (ix2 n (0 : Fin 1)) + b (ix2 (0 : Fin 1) q)) * w (ix2 q c))
        * dc (ix2 n (0 : Fin 1)) := rfl

/-- The body's stored value at `(p, c)` of its block. (The changes of float format are the identity on the extended
    reals; the two loads of the normaliser block are two reads of one block.) -/
theorem payload_apply (x0 : Vec Ideal S5000x128 .f32) (x1 : Vec Ideal S5000x1 .f32) (x2 : Vec Ideal S1x128 .f32)
    (x3 : Vec Ideal S128x64 .bf16) (x4 : Vec Ideal S5000x1 .f32) (p : Fin 5000) (c : Fin 64) :
    k1_pay1 (F := Ideal) x0 x1 x2 x3 x4 (ix2 p c)
      = (∑ q : Fin 128, leaky (x0 (ix2 p q) * x1 (ix2 p (0 : Fin 1)) + x2 (ix2 (0 : Fin 1) q)) * x3 (ix2 q c))
        * x4 (ix2 p (0 : Fin 1)) := by
  unfold k1_pay1
  rw [mulf_apply, Cert.PlainDot.matmul_zero_apply ⟨rfl, rfl, rfl, rfl, rfl, rfl⟩, Cert.Column.broadcastTo_a1_ab_apply]
  simp only [truncf_apply, shapeCast_self, select_apply, cmpf_apply, mulf_apply, addf_apply, broadcast_apply,
    Cert.Column.broadcastTo_a1_ab_apply, broadcastTo_1b_ab_apply]
  rfl

theorem zero_offsets : (![0, 0] : Fin 2 → Nat) = fun _ => 0 := funext fun a => by fin_cases a <;> rfl

/-- The printed index maps, decided over the grid: the feature window, the normaliser window and the output window
    are all at row block `t`, column block 0; the bias window and the weight window stay at block (0, 0). -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

variable (V : (c : Dev nD) → (b : Ref sig .tc) → Buf (Elt Ideal) ((c : Thread nD τ).loc b))

/-- WHAT POINT `t` WRITES BACK is block `t` of the hidden product of the arrays as the region finds them. -/
theorem flushed_eq (c : Dev nD) (t : Fin cfg1.N) :
    (dat1 V c).flushed 4 t
      = ((cfg1.win 4).blk t).view.read (Elt Ideal)
          (hiddenProduct (V c main_v28) (V c main_v15) (V c main_v29) (V c main_v17)) := by
  show (cfg1.win 4).cut (grid1.coords t) ((dat1 V c).after 4 t) = _
  rw [after1_4]
  unfold out1_4
  rw [View.canon_unit_zero zero_offsets]
  simp only [View.ld_unit_zero (S := S5000x128) zero_offsets, View.ld_unit_zero (S := S5000x1) zero_offsets,
    View.ld_unit_zero (S := S1x128) zero_offsets, View.ld_unit_zero (S := S128x64) zero_offsets]
  obtain ⟨e00, e01, e10, e11, e20, e21, e30, e31, e40, e41⟩ := index_facts t
  funext j
  have hj0 : (j 0).val < 5000 := (j 0).isLt
  have hj1 : (j 1).val < 64 := (j 1).isLt
  refine (congrArg (k1_pay1 (F := Ideal) (iblk1 V c 0 t) (iblk1 V c 1 t) (iblk1 V c 2 t) (iblk1 V c 3 t) (iblk1 V c 1 t))
    (eq_ix2 j)).trans ?_
  refine (payload_apply (iblk1 V c 0 t) (iblk1 V c 1 t) (iblk1 V c 2 t) (iblk1 V c 3 t) (iblk1 V c 1 t) (j 0) (j 1)).trans ?_
  show (fun (A : FVec Ideal S100000x128 .f32) (D : FVec Ideal S100000x1 .f32) (B : FVec Ideal S1x128 .f32)
          (W : FVec Ideal S128x64 .bf16) =>
        (∑ q : Fin 128, leaky (A (((cfg1.win 0).blk t).view.emb (ix2 (j 0) q))
              * D (((cfg1.win 1).blk t).view.emb (ix2 (j 0) (0 : Fin 1)))
              + B (((cfg1.win 2).blk t).view.emb (ix2 (0 : Fin 1) q)))
            * W (((cfg1.win 3).blk t).view.emb (ix2 q (j 1))))
          * D (((cfg1.win 1).blk t).view.emb (ix2 (j 0) (0 : Fin 1))))
        (V c main_v28) (V c main_v15) (V c main_v29) (V c main_v17)
      = hiddenProduct (V c main_v28) (V c main_v15) (V c main_v29) (V c main_v17) (((cfg1.win 4).blk t).view.emb j)
  have ha : ∀ q : Fin 128, ((cfg1.win 0).blk t).view.emb (ix2 (j 0) q)
      = ix2 ((((cfg1.win 4).blk t).view.emb j) 0) q := by
    intro q; funext a; apply Fin.ext
    match a with
    | ⟨0, _⟩ => show win1_0.index t (0 : Fin 2) * 5000 + 1 * (j 0).val = win1_4.index t (0 : Fin 2) * 5000 + 1 * (j 0).val; omega
    | ⟨1, _⟩ => show win1_0.index t (1 : Fin 2) * 128 + 1 * q.val = q.val; omega
  have hd : ((cfg1.win 1).blk t).view.emb (ix2 (j 0) (0 : Fin 1))
      = ix2 ((((cfg1.win 4).blk t).view.emb j) 0) (0 : Fin 1) := by
    funext a; apply Fin.ext
    match a with
    | ⟨0, _⟩ => show win1_1.index t (0 : Fin 2) * 5000 + 1 * (j 0).val = win1_4.index t (0 : Fin 2) * 5000 + 1 * (j 0).val; omega
    | ⟨1, _⟩ => show win1_1.index t (1 : Fin 2) * 1 + 1 * 0 = 0; omega
  have hb : ∀ q : Fin 128, ((cfg1.win 2).blk t).view.emb (ix2 (0 : Fin 1) q) = ix2 (0 : Fin 1) q := by
    intro q; funext a; apply Fin.ext
    match a with
    | ⟨0, _⟩ => show win1_2.index t (0 : Fin 2) * 1 + 1 * 0 = 0; omega
    | ⟨1, _⟩ => show win1_2.index t (1 : Fin 2) * 128 + 1 * q.val = q.val; omega
  have hw : ∀ q : Fin 128, ((cfg1.win 3).blk t).view.emb (ix2 q (j 1))
      = ix2 q ((((cfg1.win 4).blk t).view.emb j) 1) := by
    intro q; funext a; apply Fin.ext
    match a with
    | ⟨0, _⟩ => show win1_3.index t (0 : Fin 2) * 128 + 1 * q.val = q.val; omega
    | ⟨1, _⟩ => show win1_3.index t (1 : Fin 2) * 64 + 1 * (j 1).val = win1_4.index t (1 : Fin 2) * 64 + 1 * (j 1).val; omega
  simp only [ha, hd, hb, hw]
  rfl

/-- An index of the output array is in point `t`'s block iff each coordinate is in the block's range on its axis. -/
theorem mem_blk (t : Fin cfg1.N) (i : S100000x64.Idx) :
    i ∈ ((cfg1.win 4).blk t).view.set ↔ ∀ a : Fin 2,
      win1_4.index t a * S5000x64.size a ≤ (i a).val ∧ (i a).val < win1_4.index t a * S5000x64.size a + S5000x64.size a := by
  show i ∈ ((View.whole main_v30).slice (win1_4.rect t)).set ↔ _
  rw [View.set_slice_whole, Rect.mem_set_unit]
  exact Iff.rfl

/-- The 20 row blocks tile the output array: row `r` is in the block of point `r / 5000`. -/
theorem cover (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  have hN : cfg1.N = 20 := N_1
  refine ⟨⟨(i 0).val / 5000, by rw [hN]; omega⟩, flush1_4 _, ?_⟩
  rw [mem_blk]
  obtain ⟨-, -, -, -, -, -, -, -, e40, e41⟩ := index_facts ⟨(i 0).val / 5000, by rw [hN]; omega⟩
  intro a
  match a with
  | ⟨0, _⟩ =>
    show win1_4.index _ (0 : Fin 2) * 5000 ≤ (i 0).val ∧ (i 0).val < win1_4.index _ (0 : Fin 2) * 5000 + 5000
    rw [e40]; dsimp only; omega
  | ⟨1, _⟩ =>
    show win1_4.index _ (1 : Fin 2) * 64 ≤ (i 1).val ∧ (i 1).val < win1_4.index _ (1 : Fin 2) * 64 + 64
    rw [e41]; omega

/-- THE OUTPUT ARRAY after the call: the hidden product of the arrays as the region finds them. -/
theorem final (c : Dev nD) :
    (dat1 V c).arrAt 4 cfg1.N = hiddenProduct (V c main_v28) (V c main_v15) (V c main_v29) (V c main_v17) :=
  (dat1 V c).arrAt_eq_of_cover 4 _ (fun t _ => flushed_eq V c t) cover

end Cert.KernelIdeal.Region1

end
-- ==== Proof.KernelReadB.lean ====
/-
  THE KERNEL PROGRAM'S RESULT AS ONE TERM OF ITS ARGUMENTS.

  From the first call on: the call leaves the node table `(x·W₁)[n, ·] · d n` (its output array, by the first
  region's theorem) and everything else as it was; a stretch gathers that table at the edges' sources and sums it
  into the edges' targets; the second call leaves `(leaky (agg[n, ·] · d n + b₁) · W₂)[n, ·] · d n`; the last stretch
  gathers and sums again, multiplies row `n` by `d n` and adds `b₂`. The source column is the reference's stage `v36`
  (the sources with negative indices wrapped round), the target column its stage `v42` (the raw targets), `d` its
  stage `v14`: the same operations of the edge list on both sides.
-/
import proofs.«179346_j17454747091291_2_alg».proof.Proof.KernelReadA
import proofs.«179346_j17454747091291_2_alg».proof.Proof.Region0Value
import proofs.«179346_j17454747091291_2_alg».proof.Proof.Region1Value

set_option maxRecDepth 16384

noncomputable section

namespace Cert.KernelIdeal.ReadBack

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-- The edges' sources, negative indices wrapped round, as a column. -/
abbrev srcCol : IVec S1700000x1 32 := Cert.ReferenceIdeal.ReadP.val_main_v36 (F := Ideal) (edges m c)
/-- The edges' targets as a column. -/
abbrev dstCol : IVec S1700000x1 32 := Cert.ReferenceIdeal.ReadP.val_main_v42 (F := Ideal) (edges m c)

/-- The first bias as a row. -/
abbrev biasRow1 : FVec Ideal S1x128 .f32 :=
  shapeCast S1x128 (b1 m c) shapeCasts_S128_S1x128

/-- The first call's output: the product of the features with the first weights, row `n` scaled by `d n`. -/
abbrev table1 : FVec Ideal S100000x128 .f32 :=
  Region0.scaledProduct (feats m c)
    (weights1 m c) (normCol m c)

/-- The first aggregation: the table gathered at the sources and summed into the targets. -/
abbrev agg1 : FVec Ideal S100000x128 .f32 :=
  Host.scatterAdd scatter_S100000x128_S1700000x1_S1700000x128_1_0_0_1
    (broadcastInDim S100000x128 ![] bcast_S_S100000x128 (constant (F := Ideal) S_ .f32 0x00000000#32)) (dstCol m c)
    (Host.gather gather_S100000x128_S1700000x1_S1700000x128_1_0_n_n_0_1_1128 (table1 m c) (srcCol m c))

/-- The second call's output. -/
abbrev table2 : FVec Ideal S100000x64 .f32 :=
  Region1.hiddenProduct (agg1 m c) (normCol m c)
    (biasRow1 m c)
    (weights2 m c)

/-- The second aggregation. -/
abbrev agg2 : FVec Ideal S100000x64 .f32 :=
  Host.scatterAdd scatter_S100000x64_S1700000x1_S1700000x64_1_0_0_1
    (broadcastInDim S100000x64 ![] bcast_S_S100000x64 (constant (F := Ideal) S_ .f32 0x00000000#32)) (dstCol m c)
    (Host.gather gather_S100000x64_S1700000x1_S1700000x64_1_0_n_n_0_1_164 (table2 m c) (srcCol m c))

/-- The program's result. -/
abbrev result : FVec Ideal S100000x64 .f32 :=
  addf (mulf (agg2 m c) (broadcastInDim S100000x64 ![0, 1] bcast_S100000x1_S100000x64_0_1 (normCol m c)))
    (broadcastInDim S100000x64 ![0, 1] bcast_S1x64_S100000x64_0_1
      (broadcastInDim S1x64 ![1] bcast_S64_S1x64_1 (b2 m c)))

/-! ## At the first call's exit -/

theorem W4_v18 : W4 m ρ c (Proc.devRef .tc main_v18) = table1 m c := by
  refine (W4_arr m ρ c 3).trans ((Region0.final (V3 m ρ) c).trans ?_)
  show Region0.scaledProduct (W3 m ρ c (Proc.devRef .tc main_arg0)) (W3 m ρ c (Proc.devRef .tc main_v16))
    (W3 m ρ c (Proc.devRef .tc main_v15)) = _
  rw [W3_arg0, W3_v16, W3_v15]

theorem W4_v15 : W4 m ρ c (Proc.devRef .tc main_v15) = normCol m c :=
  ((W4_arr m ρ c 2).trans (((dat0 (V3 m ρ) c).arrAt_in 2 rfl _).trans (A_eq0 (V3 m ρ) c 2))).trans (W3_v15 m ρ c)

theorem W4_v17 : W4 m ρ c (Proc.devRef .tc main_v17) = weights2 m c :=
  (W4_of_ne m ρ c main_v17 (by decide)).trans (W3_v17 m ρ c)

theorem W4_v3 : W4 m ρ c (Proc.devRef .tc main_v3) = Cert.ReferenceIdeal.ReadP.val_main_v3 (F := Ideal) (edges m c) :=
  (W4_of_ne m ρ c main_v3 (by decide)).trans (W3_v3 m ρ c)

theorem W4_v6 : W4 m ρ c (Proc.devRef .tc main_v6) = Cert.ReferenceIdeal.ReadP.val_main_v6 (F := Ideal) (edges m c) :=
  (W4_of_ne m ρ c main_v6 (by decide)).trans (W3_v6 m ρ c)

theorem W4_arg3 : W4 m ρ c (Proc.devRef .tc main_arg3) = m ((c : Thread nD τ).loc main_arg3) :=
  (W4_of_ne m ρ c main_arg3 (by decide)).trans (W3_arg3 m ρ c)

theorem W4_arg5 : W4 m ρ c (Proc.devRef .tc main_arg5) = m ((c : Thread nD τ).loc main_arg5) :=
  (W4_of_ne m ρ c main_arg5 (by decide)).trans (W3_arg5 m ρ c)

/-! ## When the second call is entered -/

theorem W5_v28 : W5 m ρ c (Proc.devRef .tc main_v28) = agg1 m c := by
  show StableHlo.after hostOps1 (W4 m ρ c) (Proc.devRef .tc main_v28) = _
  walk_back [hostOps1]
  rw [W4_v3, W4_v6, W4_v18]
  rfl

theorem W5_v29 : W5 m ρ c (Proc.devRef .tc main_v29) = biasRow1 m c := by
  show StableHlo.after hostOps1 (W4 m ρ c) (Proc.devRef .tc main_v29) = _
  walk_back [hostOps1]
  rw [W4_arg3]
  rfl

theorem W5_v15 : W5 m ρ c (Proc.devRef .tc main_v15) = normCol m c := by
  show StableHlo.after hostOps1 (W4 m ρ c) (Proc.devRef .tc main_v15) = _
  walk_back [hostOps1]
  exact W4_v15 m ρ c

theorem W5_v17 : W5 m ρ c (Proc.devRef .tc main_v17) = weights2 m c := by
  show StableHlo.after hostOps1 (W4 m ρ c) (Proc.devRef .tc main_v17) = _
  walk_back [hostOps1]
  exact W4_v17 m ρ c

theorem W5_v3 : W5 m ρ c (Proc.devRef .tc main_v3) = Cert.ReferenceIdeal.ReadP.val_main_v3 (F := Ideal) (edges m c) := by
  show StableHlo.after hostOps1 (W4 m ρ c) (Proc.devRef .tc main_v3) = _
  walk_back [hostOps1]
  exact W4_v3 m ρ c

theorem W5_v6 : W5 m ρ c (Proc.devRef .tc main_v6) = Cert.ReferenceIdeal.ReadP.val_main_v6 (F := Ideal) (edges m c) := by
  show StableHlo.after hostOps1 (W4 m ρ c) (Proc.devRef .tc main_v6) = _
  walk_back [hostOps1]
  exact W4_v6 m ρ c

theorem W5_arg5 : W5 m ρ c (Proc.devRef .tc main_arg5) = m ((c : Thread nD τ).loc main_arg5) := by
  show StableHlo.after hostOps1 (W4 m ρ c) (Proc.devRef .tc main_arg5) = _
  walk_back [hostOps1]
  exact W4_arg5 m ρ c

/-! ## At the second call's exit -/

theorem W6_v30 : W6 m ρ c (Proc.devRef .tc main_v30) = table2 m c := by
  refine (W6_arr m ρ c 4).trans ((Region1.final (V5 m ρ) c).trans ?_)
  show Region1.hiddenProduct (W5 m ρ c (Proc.devRef .tc main_v28)) (W5 m ρ c (Proc.devRef .tc main_v15))
    (W5 m ρ c (Proc.devRef .tc main_v29)) (W5 m ρ c (Proc.devRef .tc main_v17)) = _
  rw [W5_v28, W5_v15, W5_v29, W5_v17]

theorem W6_v15 : W6 m ρ c (Proc.devRef .tc main_v15) = normCol m c :=
  ((W6_arr m ρ c 1).trans (((dat1 (V5 m ρ) c).arrAt_in 1 rfl _).trans (A_eq1 (V5 m ρ) c 1))).trans (W5_v15 m ρ c)

theorem W6_v3 : W6 m ρ c (Proc.devRef .tc main_v3) = Cert.ReferenceIdeal.ReadP.val_main_v3 (F := Ideal) (edges m c) :=
  (W6_of_ne m ρ c main_v3 (by decide)).trans (W5_v3 m ρ c)

theorem W6_v6 : W6 m ρ c (Proc.devRef .tc main_v6) = Cert.ReferenceIdeal.ReadP.val_main_v6 (F := Ideal) (edges m c) :=
  (W6_of_ne m ρ c main_v6 (by decide)).trans (W5_v6 m ρ c)

theorem W6_arg5 : W6 m ρ c (Proc.devRef .tc main_arg5) = m ((c : Thread nD τ).loc main_arg5) :=
  (W6_of_ne m ρ c main_arg5 (by decide)).trans (W5_arg5 m ρ c)

/-! ## The result -/

/-- The result buffer's contents at the last boundary are the program's result term. -/
theorem W7_v45 : W7 m ρ c (Proc.devRef .tc main_v45) = result m c := by
  show StableHlo.after hostOps2 (W6 m ρ c) (Proc.devRef .tc main_v45) = _
  walk_back [hostOps2]
  rw [W6_v3, W6_v6, W6_v30, W6_v15, W6_arg5]
  rfl

end Cert.KernelIdeal.ReadBack

end
-- ==== Proof.LibRowGatherScatter.lean ====
/-
  ROW GATHER AND ROW / VECTOR SCATTER-ADD, READ AT ONE ENTRY (general lemmas: any extents, any element type).

  A table `x : [N, C]` is gathered at `E` start indices `S : [E, 1]` (what `x[src]` lowers to): result row `e` is the
  table's row at `S[e, 0]`, the start index read as a signed integer and clamped into `[0, N − 1]` (`srcRow`):
      gather x S (e, k) = x (srcRow S e, k)                                            (`gather_row_apply`).
  `E` update rows `u : [E, C]` are scatter-added into `x : [N, C]` at scatter indices `D : [E, 1]` (what a segment sum
  lowers to): update row `e` lands on row `n` exactly when `D[e, 0]`, read as a signed integer and NOT clamped, is `n`
  (`Lands D e n`); an update whose index is negative or at least `N` lands nowhere. In exact (extended-real)
  arithmetic the result's entry is the operand's entry plus the sum, over the edges that land there, of their updates:
      scatterAdd x D u (n, k) = x (n, k) + ∑ e with Lands D e n, u (e, k)              (`scatterAdd_row_apply`),
  and the same for `E` scalars scatter-added into a vector `x : [N]` (a degree count):
      scatterAdd x D u (n)    = x (n)    + ∑ e with Lands D e n, u (e)                 (`scatterAdd_vec_apply`).

  The dimension numbers enter through the predicates `IsRowGather`, `IsRowScatter`, `IsVecScatter`, which say what
  the lists of a record are; at a literal record every field equation is `rfl`. Each lemma is first proved for the
  literal record (`rowGatherDims`, `rowScatterDims`, `vecScatterDims`: those lists with an arbitrary proof of their
  conditions) by computing the start, window and offset coordinates axis by axis; the scatter lemmas go through the
  characterisation of the landing index (`resultIdx?_rowDims`: update `(e, c)` lands on `(n, k)` iff `Lands D e n` and
  `c = k`; `resultIdx?_vecDims`: update `e` lands on `n` iff `Lands D e n`) and then re-index the sum over update
  multi-indices by the edge number.
-/
import Idealize.ShloMosaic.PureOps.Ideal
import Idealize.ShloMosaic.Lib.ValueIdx

noncomputable section

open scoped BigOperators

namespace Cert.RowGS

open Idealize.ShloMosaic Idealize.ShloMosaic.ValueIdx

variable {N E C w : Nat}

/-- The row an edge reads: its start index read as a signed integer and clamped into `[0, N − 1]`. -/
def srcRow (hN : 0 < N) (S : IVec ⟨2, ![E, 1]⟩ w) (e : Fin E) : Fin N :=
  ⟨min (S (ix2 e (0 : Fin 1))).toInt.toNat (N - 1), by omega⟩

/-- Edge `e`'s update lands on row `n`: its scatter index read as a signed integer is `n`. -/
abbrev Lands (D : IVec ⟨2, ![E, 1]⟩ w) (e : Fin E) (n : Fin N) : Prop :=
  (D (ix2 e (0 : Fin 1))).toInt = (n.val : Int)

/-- An axis of a rank-2 shape is the first or the second. -/
theorem fin2_cases (a : Fin 2) : a = 0 ∨ a = 1 := by
  match a with
  | ⟨0, _⟩ => exact Or.inl rfl
  | ⟨1, _⟩ => exact Or.inr rfl

/-! ## Gather of whole rows -/

/-- `g` gathers whole rows of an `[N, C]` table at `[E, 1]` start indices: the row axis is collapsed and is the one
    the start index addresses, the column axis is the one offset axis with the full slice `C`, nothing is batched. -/
structure IsRowGather (g : GatherDims ⟨2, ![N, C]⟩ ⟨2, ![E, 1]⟩ ⟨2, ![E, C]⟩) : Prop where
  od : g.offsetDims = [1]
  cs : g.collapsedSliceDims = [0]
  ob : g.operandBatchingDims = []
  sb : g.startIndicesBatchingDims = []
  sim : g.startIndexMap = [0]
  ivd : g.indexVectorDim = 1
  ss : g.sliceSizes = ![1, C]

/-- The row-gather dimension numbers as a literal record (any proof `wf` of their conditions). -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The gather at the literal record, read at `(e, k)`. On the row axis the operand coordinate is the clamped start
    (no batching coordinate; the axis is collapsed, so no offset); on the column axis the start is `0` (the start
    index does not address it) and the offset coordinate is `k`. -/
theorem gather_rowDims_apply {α : Type} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (S : IVec ⟨2, ![E, 1]⟩ w) (e : Fin E) (k : Fin C) :
    Host.gather (rowGatherDims N E C wf) x S (ix2 e k) = x (ix2 (srcRow hN S e) k) := by
  unfold Host.gather
  congr 1
  funext a
  refine Fin.ext ?_
  show (rowGatherDims N E C wf).start (ix2 e k) S a + (rowGatherDims N E C wf).batchCoord (ix2 e k) a
    + (rowGatherDims N E C wf).offCoord (ix2 e k) a = _
  rw [GatherDims.batchCoord_eq_zero _ _ _ List.not_mem_nil]
  rcases fin2_cases a with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    -- the start index of result row `e` is read at `[e, 0]`
    have hsi : (rowGatherDims N E C wf).siIdx (ix2 e k)
        ⟨List.idxOf (0 : Fin 2) (rowGatherDims N E C wf).startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  · unfold GatherDims.start
    rw [dif_neg (show (1 : Fin 2) ∉ (rowGatherDims N E C wf).startIndexMap from
      show (1 : Fin 2) ∉ ([0] : List (Fin 2)) from by decide)]
    unfold GatherDims.offCoord
    rw [dif_pos ((GatherDims.mem_sKept _ _).mpr
      ⟨show (1 : Fin 2) ∉ ([0] : List (Fin 2)) from by decide, List.not_mem_nil⟩)]
    simp only [Nat.add_zero, Nat.zero_add]
    rfl

/-- THE ROW GATHER READ AT `(e, k)`: the table at row `srcRow S e` (the start index `S[e, 0]`, read signed and clamped
    into `[0, N − 1]`), column `k`. -/
theorem gather_row_apply {α : Type} {g : GatherDims ⟨2, ![N, C]⟩ ⟨2, ![E, 1]⟩ ⟨2, ![E, C]⟩} (hg : IsRowGather g)
    (hN : 0 < N) (x : (⟨2, ![N, C]⟩ : Shape).Idx → α) (S : IVec ⟨2, ![E, 1]⟩ w) (e : Fin E) (k : Fin C) :
    Host.gather g x S (ix2 e k) = x (ix2 (srcRow hN S e) k) := by
  obtain ⟨od, cs, ob, sb, sim, ivd, ss, wf⟩ := g
  obtain ⟨h1, h2, h3, h4, h5, h6, h7⟩ := hg
  dsimp only at h1 h2 h3 h4 h5 h6 h7
  subst h1 h2 h3 h4 h5 h6 h7
  exact gather_rowDims_apply hN wf x S e k

/-! ## Scatter-add of rows into an `[N, C]` array -/

/-- `d` scatters `[E, C]` update rows into an `[N, C]` operand at `[E, 1]` scatter indices: the row axis is the
    inserted one and the one the scatter index addresses, the column axis is the one window axis. -/
structure IsRowScatter (d : ScatterDims ⟨2, ![N, C]⟩ ⟨2, ![E, 1]⟩ ⟨2, ![E, C]⟩) : Prop where
  uw : d.updateWindowDims = [1]
  iw : d.insertedWindowDims = [0]
  sd : d.scatterDimsToOperandDims = [0]
  ivd : d.indexVectorDim = 1

/-- The row-scatter dimension numbers as a literal record (any proof `wf` of their conditions). -/
abbrev rowScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- An operand axis carries a window coordinate exactly when it is not an inserted axis. -/
theorem scatter_mem_sKept {s si u : Shape} (d : ScatterDims s si u) (a : Fin s.rank) :
    a ∈ d.sKept ↔ a ∉ d.insertedWindowDims := by
  simp [ScatterDims.sKept, Shape.kept, List.mem_filter, List.mem_finRange]

section RowScatter
variable (wf : ScatterDims.WF ⟨2, ![N, C]⟩ ⟨2, ![E, 1]⟩ ⟨2, ![E, C]⟩ [1] [0] [0] 1)
  (j : (⟨2, ![E, C]⟩ : Shape).Idx) (D : IVec ⟨2, ![E, 1]⟩ w)

/-- On the row axis the window of update `(e, c)` starts at the scatter index `D[e, 0]`, read signed … -/
theorem rowScatter_start0 :
    (rowScatterDims N E C wf).start j D (0 : Fin 2) = (D (ix2 (j 0) (0 : Fin 1))).toInt := by
  unfold ScatterDims.start
  rw [dif_pos (show (0 : Fin 2) ∈ (rowScatterDims N E C wf).scatterDimsToOperandDims from List.mem_singleton.mpr rfl)]
  have hsi : (rowScatterDims N E C wf).siIdx j
      ⟨List.idxOf (0 : Fin 2) (rowScatterDims N E C wf).scatterDimsToOperandDims,
        List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- … on the column axis, which the scatter index does not address, at `0`. -/
theorem rowScatter_start1 : (rowScatterDims N E C wf).start j D (1 : Fin 2) = 0 := by
  unfold ScatterDims.start
  rw [dif_neg (show (1 : Fin 2) ∉ (rowScatterDims N E C wf).scatterDimsToOperandDims from
    show (1 : Fin 2) ∉ ([0] : List (Fin 2)) from by decide)]

/-- The row axis is inserted: no window coordinate there … -/
theorem rowScatter_window0 : (rowScatterDims N E C wf).window j (0 : Fin 2) = 0 := by
  unfold ScatterDims.window
  rw [dif_neg (fun h => (scatter_mem_sKept _ _).mp h (List.mem_singleton.mpr rfl))]

/-- … and on the column axis the window coordinate of update `(e, c)` is `c`. -/
theorem rowScatter_window1 : (rowScatterDims N E C wf).window j (1 : Fin 2) = (j 1).val := by
  unfold ScatterDims.window
  rw [dif_pos ((scatter_mem_sKept _ _).mpr (show (1 : Fin 2) ∉ ([0] : List (Fin 2)) from by decide))]
  rfl

/-- WHERE AN UPDATE LANDS: update `(e, c)` lands on `(n, k)` iff its scatter index, read signed, is `n` and `c = k`.
    (The landing index is start plus window coordinate on each axis, kept only when in range: on the row axis that
    is `D[e, 0] + 0`, in range iff it is some `n < N`; on the column axis `0 + c`, always in range.) -/
theorem resultIdx?_rowDims (i : (⟨2, ![N, C]⟩ : Shape).Idx) :
    (rowScatterDims N E C wf).resultIdx? j D = some i ↔ Lands D (j 0) (i 0) ∧ (j 1).val = (i 1).val := by
  have hs0 := rowScatter_start0 wf j D
  have hs1 := rowScatter_start1 wf j D
  have hw0 := rowScatter_window0 wf j
  have hw1 := rowScatter_window1 wf j
  have hi0 : (i 0).val < N := idx2_lt0 i
  have hi1 : (i 1).val < C := idx2_lt1 i
  have hj1 : (j 1).val < C := idx2_lt1 j
  unfold ScatterDims.resultIdx?
  constructor
  · intro h
    split at h
    · rename_i hc
      have hf := Option.some.inj h
      have e0 : ((rowScatterDims N E C wf).start j D (0 : Fin 2)
          + ((rowScatterDims N E C wf).window j (0 : Fin 2) : Int)).toNat = (i 0).val :=
        congrArg Fin.val (congrFun hf 0)
      have e1 : ((rowScatterDims N E C wf).start j D (1 : Fin 2)
          + ((rowScatterDims N E C wf).window j (1 : Fin 2) : Int)).toNat = (i 1).val :=
        congrArg Fin.val (congrFun hf 1)
      have c0 := (hc 0).1
      have c1 := (hc 1).1
      rw [hs0, hw0] at e0 c0
      rw [hs1, hw1] at e1 c1
      refine ⟨?_, ?_⟩
      · show (D (ix2 (j 0) (0 : Fin 1))).toInt = ((i 0).val : Int)
        omega
      · omega
    · cases h
  · rintro ⟨hl, h1⟩
    have hl' : (D (ix2 (j 0) (0 : Fin 1))).toInt = ((i 0).val : Int) := hl
    have hc : ∀ a, 0 ≤ (rowScatterDims N E C wf).start j D a + ((rowScatterDims N E C wf).window j a : Int) ∧
        (rowScatterDims N E C wf).start j D a + ((rowScatterDims N E C wf).window j a : Int)
          < ((⟨2, ![N, C]⟩ : Shape).size a : Int) := by
      intro a
      rcases fin2_cases a with rfl | rfl
      · rw [hs0, hw0, hl']
        show 0 ≤ ((i 0).val : Int) + ((0 : Nat) : Int) ∧ ((i 0).val : Int) + ((0 : Nat) : Int) < (N : Int)
        omega
      · rw [hs1, hw1]
        show (0 : Int) ≤ 0 + ((j 1).val : Int) ∧ (0 : Int) + ((j 1).val : Int) < (C : Int)
        omega
    rw [dif_pos hc]
    congr 1
    funext a
    refine Fin.ext ?_
    rcases fin2_cases a with rfl | rfl
    · show ((rowScatterDims N E C wf).start j D (0 : Fin 2)
          + ((rowScatterDims N E C wf).window j (0 : Fin 2) : Int)).toNat = (i 0).val
      rw [hs0, hw0, hl']
      omega
    · show ((rowScatterDims N E C wf).start j D (1 : Fin 2)
          + ((rowScatterDims N E C wf).window j (1 : Fin 2) : Int)).toNat = (i 1).val
      rw [hs1, hw1]
      omega

end RowScatter

section RowScatterSum
variable (wf : ScatterDims.WF ⟨2, ![N, C]⟩ ⟨2, ![E, 1]⟩ ⟨2, ![E, C]⟩ [1] [0] [0] 1)

/-- The row scatter-add at the literal record, read at `(n, k)`: the updates landing on `(n, k)` are the `(e, k)`
    with `Lands D e n`, and `(e, c) ↦ e`, `e ↦ (e, k)` are inverse bijections between the two index sets. -/
theorem scatterAdd_rowDims_apply {φ : FTy} (x : FVec Ideal ⟨2, ![N, C]⟩ φ) (D : IVec ⟨2, ![E, 1]⟩ w)
    (u : FVec Ideal ⟨2, ![E, C]⟩ φ) (n : Fin N) (k : Fin C) :
    Host.scatterAdd (rowScatterDims N E C wf) x D u (ix2 n k)
      = x (ix2 n k) + ∑ e ∈ Finset.univ.filter (fun e : Fin E => Lands D e n), u (ix2 e k) := by
  show Ideal.hostScatterAdd (rowScatterDims N E C wf) x D u (ix2 n k) = _
  unfold Ideal.hostScatterAdd
  congr 1
  refine Finset.sum_nbij' (fun j => (j 0 : Fin E)) (fun e => ix2 e k) ?_ ?_ ?_ ?_ ?_
  · intro j hj
    obtain ⟨a, b, rfl⟩ : ∃ a b, j = ix2 a b := ⟨_, _, eq_ix2 j⟩
    have h := (resultIdx?_rowDims wf (ix2 a b) D (ix2 n k)).mp (Finset.mem_filter.mp hj).2
    exact Finset.mem_filter.mpr ⟨Finset.mem_univ _, h.1⟩
  · intro e he
    have h : Lands D e n := (Finset.mem_filter.mp he).2
    exact Finset.mem_filter.mpr ⟨Finset.mem_univ _, (resultIdx?_rowDims wf (ix2 e k) D (ix2 n k)).mpr ⟨h, rfl⟩⟩
  · intro j hj
    obtain ⟨a, b, rfl⟩ : ∃ a b, j = ix2 a b := ⟨_, _, eq_ix2 j⟩
    have h := (resultIdx?_rowDims wf (ix2 a b) D (ix2 n k)).mp (Finset.mem_filter.mp hj).2
    obtain rfl : b = k := Fin.ext h.2
    rfl
  · intro e _
    rfl
  · intro j hj
    obtain ⟨a, b, rfl⟩ : ∃ a b, j = ix2 a b := ⟨_, _, eq_ix2 j⟩
    have h := (resultIdx?_rowDims wf (ix2 a b) D (ix2 n k)).mp (Finset.mem_filter.mp hj).2
    obtain rfl : b = k := Fin.ext h.2
    rfl

end RowScatterSum

/-- THE ROW SCATTER-ADD READ AT `(n, k)`: the operand's entry plus the sum, over the edges `e` whose scatter index
    (read signed, not clamped) is `n`, of the update entries `u (e, k)`. -/
theorem scatterAdd_row_apply {φ : FTy} {d : ScatterDims ⟨2, ![N, C]⟩ ⟨2, ![E, 1]⟩ ⟨2, ![E, C]⟩} (hd : IsRowScatter d)
    (x : FVec Ideal ⟨2, ![N, C]⟩ φ) (D : IVec ⟨2, ![E, 1]⟩ w) (u : FVec Ideal ⟨2, ![E, C]⟩ φ) (n : Fin N) (k : Fin C) :
    Host.scatterAdd d x D u (ix2 n k)
      = x (ix2 n k) + ∑ e ∈ Finset.univ.filter (fun e : Fin E => Lands D e n), u (ix2 e k) := by
  obtain ⟨uw, iw, sd, ivd, wf⟩ := d
  obtain ⟨h1, h2, h3, h4⟩ := hd
  dsimp only at h1 h2 h3 h4
  subst h1 h2 h3 h4
  exact scatterAdd_rowDims_apply wf x D u n k

/-! ## Scatter-add of scalars into an `[N]` vector -/

/-- `d` scatters `[E]` update scalars into an `[N]` operand at `[E, 1]` scatter indices: the operand's one axis is
    inserted and addressed by the scatter index; the updates have no window axis. -/
structure IsVecScatter (d : ScatterDims ⟨1, ![N]⟩ ⟨2, ![E, 1]⟩ ⟨1, ![E]⟩) : Prop where
  uw : d.updateWindowDims = []
  iw : d.insertedWindowDims = [0]
  sd : d.scatterDimsToOperandDims = [0]
  ivd : d.indexVectorDim = 1

/-- The vector-scatter dimension numbers as a literal record (any proof `wf` of their conditions). -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section VecScatter
variable (wf : ScatterDims.WF ⟨1, ![N]⟩ ⟨2, ![E, 1]⟩ ⟨1, ![E]⟩ [] [0] [0] 1)
  (j : (⟨1, ![E]⟩ : Shape).Idx) (D : IVec ⟨2, ![E, 1]⟩ w)

/-- The window of update `e` starts at the scatter index `D[e, 0]`, read signed … -/
theorem vecScatter_start0 :
    (vecScatterDims N E wf).start j D (0 : Fin 1) = (D (ix2 (j 0) (0 : Fin 1))).toInt := by
  unfold ScatterDims.start
  rw [dif_pos (show (0 : Fin 1) ∈ (vecScatterDims N E wf).scatterDimsToOperandDims from List.mem_singleton.mpr rfl)]
  have hsi : (vecScatterDims N E wf).siIdx j
      ⟨List.idxOf (0 : Fin 1) (vecScatterDims N E wf).scatterDimsToOperandDims,
        List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- … and the operand's axis is inserted: no window coordinate. -/
theorem vecScatter_window0 : (vecScatterDims N E wf).window j (0 : Fin 1) = 0 := by
  unfold ScatterDims.window
  rw [dif_neg (fun h => (scatter_mem_sKept _ _).mp h (List.mem_singleton.mpr rfl))]

/-- WHERE AN UPDATE LANDS: update `e` lands on `n` iff its scatter index, read signed, is `n`. -/
theorem resultIdx?_vecDims (i : (⟨1, ![N]⟩ : Shape).Idx) :
    (vecScatterDims N E wf).resultIdx? j D = some i ↔ Lands D (j 0) (i 0) := by
  have hs0 := vecScatter_start0 wf j D
  have hw0 := vecScatter_window0 wf j
  have hi0 : (i 0).val < N := (i 0).isLt
  unfold ScatterDims.resultIdx?
  constructor
  · intro h
    split at h
    · rename_i hc
      have hf := Option.some.inj h
      have e0 : ((vecScatterDims N E wf).start j D (0 : Fin 1)
          + ((vecScatterDims N E wf).window j (0 : Fin 1) : Int)).toNat = (i 0).val :=
        congrArg Fin.val (congrFun hf 0)
      have c0 := (hc 0).1
      rw [hs0, hw0] at e0 c0
      show (D (ix2 (j 0) (0 : Fin 1))).toInt = ((i 0).val : Int)
      omega
    · cases h
  · intro hl
    have hl' : (D (ix2 (j 0) (0 : Fin 1))).toInt = ((i 0).val : Int) := hl
    have hc : ∀ a, 0 ≤ (vecScatterDims N E wf).start j D a + ((vecScatterDims N E wf).window j a : Int) ∧
        (vecScatterDims N E wf).start j D a + ((vecScatterDims N E wf).window j a : Int)
          < ((⟨1, ![N]⟩ : Shape).size a : Int) := by
      intro a
      obtain rfl : a = (0 : Fin 1) := Subsingleton.elim _ _
      rw [hs0, hw0, hl']
      show 0 ≤ ((i 0).val : Int) + ((0 : Nat) : Int) ∧ ((i 0).val : Int) + ((0 : Nat) : Int) < (N : Int)
      omega
    rw [dif_pos hc]
    congr 1
    funext a
    refine Fin.ext ?_
    obtain rfl : a = (0 : Fin 1) := Subsingleton.elim _ _
    show ((vecScatterDims N E wf).start j D (0 : Fin 1)
        + ((vecScatterDims N E wf).window j (0 : Fin 1) : Int)).toNat = (i 0).val
    rw [hs0, hw0, hl']
    omega

end VecScatter

section VecScatterSum
variable (wf : ScatterDims.WF ⟨1, ![N]⟩ ⟨2, ![E, 1]⟩ ⟨1, ![E]⟩ [] [0] [0] 1)

/-- The vector scatter-add at the literal record, read at `n`: an update index is its one coordinate, the edge
    number, and it lands on `n` iff `Lands D e n`. -/
theorem scatterAdd_vecDims_apply {φ : FTy} (x : FVec Ideal ⟨1, ![N]⟩ φ) (D : IVec ⟨2, ![E, 1]⟩ w)
    (u : FVec Ideal ⟨1, ![E]⟩ φ) (n : Fin N) :
    Host.scatterAdd (vecScatterDims N E wf) x D u (ix1 n)
      = x (ix1 n) + ∑ e ∈ Finset.univ.filter (fun e : Fin E => Lands D e n), u (ix1 e) := by
  show Ideal.hostScatterAdd (vecScatterDims N E wf) x D u (ix1 n) = _
  unfold Ideal.hostScatterAdd
  congr 1
  refine Finset.sum_nbij' (fun j => (j 0 : Fin E)) (fun e => ix1 e) ?_ ?_ ?_ ?_ ?_
  · intro j hj
    obtain ⟨a, rfl⟩ : ∃ a, j = ix1 a := ⟨_, eq_ix1 j⟩
    have h := (resultIdx?_vecDims wf (ix1 a) D (ix1 n)).mp (Finset.mem_filter.mp hj).2
    exact Finset.mem_filter.mpr ⟨Finset.mem_univ _, h⟩
  · intro e he
    have h : Lands D e n := (Finset.mem_filter.mp he).2
    exact Finset.mem_filter.mpr ⟨Finset.mem_univ _, (resultIdx?_vecDims wf (ix1 e) D (ix1 n)).mpr h⟩
  · intro j _
    obtain ⟨a, rfl⟩ : ∃ a, j = ix1 a := ⟨_, eq_ix1 j⟩
    rfl
  · intro e _
    rfl
  · intro j _
    obtain ⟨a, rfl⟩ : ∃ a, j = ix1 a := ⟨_, eq_ix1 j⟩
    rfl

end VecScatterSum

/-- THE VECTOR SCATTER-ADD READ AT `n`: the operand's entry plus the sum, over the edges `e` whose scatter index
    (read signed, not clamped) is `n`, of the update scalars `u (e)`. -/
theorem scatterAdd_vec_apply {φ : FTy} {d : ScatterDims ⟨1, ![N]⟩ ⟨2, ![E, 1]⟩ ⟨1, ![E]⟩} (hd : IsVecScatter d)
    (x : FVec Ideal ⟨1, ![N]⟩ φ) (D : IVec ⟨2, ![E, 1]⟩ w) (u : FVec Ideal ⟨1, ![E]⟩ φ) (n : Fin N) :
    Host.scatterAdd d x D u (ix1 n)
      = x (ix1 n) + ∑ e ∈ Finset.univ.filter (fun e : Fin E => Lands D e n), u (ix1 e) := by
  obtain ⟨uw, iw, sd, ivd, wf⟩ := d
  obtain ⟨h1, h2, h3, h4⟩ := hd
  dsimp only at h1 h2 h3 h4
  subst h1 h2 h3 h4
  exact scatterAdd_vecDims_apply wf x D u n

end Cert.RowGS

end
-- ==== Proof.LibGcnLaw.lean ====
/-
  The algebra that joins the two programs, on the extended reals.

  A graph-convolution layer sums, over the edges `e` that land on a node `n`, the source node's feature row scaled by
  the two ends' normalisers `d (src e) · d n`. One program multiplies every message by both factors before summing;
  the other scales the source rows by `d (src e)` first, sums, and multiplies the sum by `d n` afterwards. The two
  agree because `d n` is a non-negative number that is not `+∞`: such a factor distributes over a sum of extended
  reals whatever the summands are (an infinite summand of either sign included), while `+∞` or a negative factor would
  not. The normaliser is `1/√deg` where the degree is positive and `0` elsewhere, so it is non-negative and never
  `+∞` for every extended-real degree.
-/
import Idealize.ShloMosaic.PureOps.Ideal

noncomputable section

open scoped BigOperators

namespace Cert.GcnLaw

open Idealize.ShloMosaic

/-- A non-negative factor other than `+∞` distributes over a finite sum of extended reals. -/
theorem mul_sum {ι : Type} (s : Finset ι) (d : EReal) (h0 : 0 ≤ d) (ht : d ≠ ⊤) (f : ι → EReal) :
    d * ∑ e ∈ s, f e = ∑ e ∈ s, d * f e := by
  classical
  induction s using Finset.induction_on with
  | empty => simp
  | insert a s ha ih =>
    rw [Finset.sum_insert ha, Finset.sum_insert ha, EReal.left_distrib_of_nonneg_of_ne_top h0 ht, ih]

/-- THE LAYER LAW. Scaling the sum of the pre-scaled messages `a e · q e` by the target's normaliser `d` is summing the
    messages each scaled by the product `q e · d` of the two normalisers. (Both sums start from zero, as a scatter-add
    into a zero array does.) -/
theorem layer {ι : Type} (s : Finset ι) (d : EReal) (h0 : 0 ≤ d) (ht : d ≠ ⊤) (a q : ι → EReal) :
    d * (0 + ∑ e ∈ s, a e * q e) = 0 + ∑ e ∈ s, a e * (q e * d) := by
  rw [zero_add, zero_add, mul_sum s d h0 ht]
  refine Finset.sum_congr rfl fun e _ => ?_
  rw [mul_comm d, mul_assoc]

/-- The normaliser of a degree `x`: `1/√x` where `x` is positive, `0` elsewhere. -/
def normaliser (x : EReal) : EReal := if 0 < x then Ideal.rsqrt x else 0

theorem normaliser_nonneg (x : EReal) : 0 ≤ normaliser x := by
  unfold normaliser
  split
  · rename_i hx
    induction x using EReal.rec with
    | bot => exact absurd hx (by simp)
    | top => simp
    | coe r =>
      have hr : 0 < r := by exact_mod_cast hx
      rw [Ideal.rsqrt_coe, if_neg (not_lt.mpr hr.le), if_neg hr.ne']
      exact_mod_cast (inv_nonneg.mpr (Real.sqrt_nonneg r))
  · exact le_refl _

theorem normaliser_ne_top (x : EReal) : normaliser x ≠ ⊤ := by
  unfold normaliser
  split
  · rename_i hx
    induction x using EReal.rec with
    | bot => exact absurd hx (by simp)
    | top => simp
    | coe r =>
      have hr : 0 < r := by exact_mod_cast hx
      rw [Ideal.rsqrt_coe, if_neg (not_lt.mpr hr.le), if_neg hr.ne']
      exact EReal.coe_ne_top _
  · exact EReal.zero_ne_top

/-- The selection `where(x > 0, rsqrt x, 0)` as the programs spell it — a comparison's one-bit result choosing between
    the reciprocal square root and zero — is the normaliser. -/
theorem select_eq_normaliser (x : EReal) :
    Scalar.select (Ideal.cmp .ogt x 0) (Ideal.rsqrt x) (0 : EReal) = normaliser x := by
  unfold Scalar.select normaliser Ideal.cmp
  by_cases h : (0 : EReal) < x
  · simp [h]
  · simp [h]

end Cert.GcnLaw

end
-- ==== Proof.LibScaledLayer.lean ====
/-
  ONE GRAPH-CONVOLUTION LAYER WITH THE TARGET'S NORMALISER APPLIED LAST, ON THE RIGHT.

  A node table `h : [N, C]` is gathered at the edges' sources `S` and summed into the edges' targets `D`. One program
  first scales row `n` of the table by the node's normaliser `d n` (the table `hs`), sums the gathered rows as they
  are, and multiplies the summed row `n` by `d n`; the other multiplies every gathered row by the product
  `d (src e) · d (dst e)` of its two ends' normalisers and then sums. Entry by entry both are a sum over the edges `e`
  that land on the row:
      (Σ_e h[src e, c] · d (src e)) · d n   =   Σ_e h[src e, c] · (d (src e) · d (dst e)).
  An edge that lands on `n` has target `n`; and `d n` is non-negative and not `+∞`, so it distributes over the sum of
  extended reals whatever the summands are.
-/
import proofs.«179346_j17454747091291_2_alg».proof.Proof.LibRowGatherScatter
import proofs.«179346_j17454747091291_2_alg».proof.Proof.LibGcnLaw
import Idealize.ShloMosaic.Lib.Pipeline.Value
import Idealize.ShloMosaic.Lib.ValueIdx

noncomputable section

open scoped BigOperators

namespace Cert.ScaledLayer

open Idealize.ShloMosaic Idealize.ShloMosaic.ValueIdx Cert.RowGS

variable {N E C : Nat}

/-- The layer, both ways, as whole arrays. `Sd` is the targets after negative indices are wrapped round: on an edge
    that lands on row `n` it still reads `n` (`hSd`). -/
theorem layer_right (hN : 0 < N)
    {gd gd' : GatherDims ⟨2, ![N, C]⟩ ⟨2, ![E, 1]⟩ ⟨2, ![E, C]⟩} (hgd : IsRowGather gd) (hgd' : IsRowGather gd')
    {sd sd' : ScatterDims ⟨2, ![N, C]⟩ ⟨2, ![E, 1]⟩ ⟨2, ![E, C]⟩} (hsd : IsRowScatter sd) (hsd' : IsRowScatter sd')
    (zeros zeros' : FVec Ideal ⟨2, ![N, C]⟩ .f32) (hz : ∀ i, zeros i = 0) (hz' : ∀ i, zeros' i = 0)
    (D S Sd : IVec ⟨2, ![E, 1]⟩ 32)
    (hSd : ∀ (e : Fin E) (n : Fin N), Lands D e n → srcRow hN Sd e = n)
    (d : (⟨1, ![N]⟩ : Shape).Idx → EReal) (hd0 : ∀ n, 0 ≤ d (ix1 n)) (hdt : ∀ n, d (ix1 n) ≠ ⊤)
    (dcol : FVec Ideal ⟨2, ![N, C]⟩ .f32) (hdcol : ∀ n c, dcol (ix2 n c) = d (ix1 n))
    (nrm : FVec Ideal ⟨2, ![E, C]⟩ .f32)
    (hnrm : ∀ e c, nrm (ix2 e c) = d (ix1 (srcRow hN S e)) * d (ix1 (srcRow hN Sd e)))
    (hs h : FVec Ideal ⟨2, ![N, C]⟩ .f32)
    (hh : ∀ n c, hs (ix2 n c) = h (ix2 n c) * d (ix1 n)) :
    mulf (Host.scatterAdd sd zeros D (Host.gather gd hs S)) dcol
      = Host.scatterAdd sd' zeros' D (mulf (Host.gather gd' h S) nrm) := by
  funext i
  obtain ⟨n, c, rfl⟩ : ∃ (n : Fin N) (c : Fin C), i = ix2 n c := ⟨i 0, i 1, eq_ix2 i⟩
  rw [mulf_apply, hdcol, scatterAdd_row_apply hsd, scatterAdd_row_apply hsd', hz, hz']
  have hl : ∀ e ∈ Finset.univ.filter (fun e : Fin E => Lands D e n),
      (Host.gather gd hs S) (ix2 e c) = h (ix2 (srcRow hN S e) c) * d (ix1 (srcRow hN S e)) := by
    intro e _
    rw [gather_row_apply hgd hN]
    exact hh _ _
  have hr : ∀ e ∈ Finset.univ.filter (fun e : Fin E => Lands D e n),
      (mulf (Host.gather gd' h S) nrm) (ix2 e c)
        = h (ix2 (srcRow hN S e) c) * (d (ix1 (srcRow hN S e)) * d (ix1 n)) := by
    intro e he
    rw [mulf_apply, gather_row_apply hgd' hN, hnrm, hSd e n (Finset.mem_filter.mp he).2]
  rw [Finset.sum_congr rfl hl, Finset.sum_congr rfl hr, mul_comm]
  exact Cert.GcnLaw.layer _ _ (hd0 n) (hdt n) _ _

end Cert.ScaledLayer

end
-- ==== Proof.LibVecGather.lean ====
/-
  VECTOR GATHER READ AT ONE ENTRY (a general lemma: any extents, any element type).

  A vector `x : [N]` is gathered at `E` start indices `S : [E, 1]` (what `x[idx]` lowers to for a rank-1 table):
  result entry `e` is the vector's entry at `S[e, 0]`, the start index read as a signed integer and clamped into
  `[0, N − 1]` — the same row `Cert.RowGS.srcRow` names for a row gather:
      gather x S (e) = x (srcRow S e)                                                  (`gather_vec_apply`).
  The one operand axis is collapsed and is the one the start index addresses; there is no offset axis and nothing is
  batched, so the operand coordinate is the clamped start alone.
-/
import proofs.«179346_j17454747091291_2_alg».proof.Proof.LibRowGatherScatter

noncomputable section

namespace Cert.VecGather

open Idealize.ShloMosaic Idealize.ShloMosaic.ValueIdx Cert.RowGS

variable {N E w : Nat}

/-- `g` gathers single entries of an `[N]` vector at `[E, 1]` start indices. -/
structure IsVecGather (g : GatherDims ⟨1, ![N]⟩ ⟨2, ![E, 1]⟩ ⟨1, ![E]⟩) : Prop where
  od : g.offsetDims = []
  cs : g.collapsedSliceDims = [0]
  ob : g.operandBatchingDims = []
  sb : g.startIndicesBatchingDims = []
  sim : g.startIndexMap = [0]
  ivd : g.indexVectorDim = 1
  ss : g.sliceSizes = ![1]

/-- The vector-gather dimension numbers as a literal record (any proof `wf` of their conditions). -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The gather at the literal record, read at `e`: on the one operand axis the coordinate is the clamped start (no
    batching coordinate; the axis is collapsed, so no offset). -/
theorem gather_vecDims_apply {α : Type} (hN : 0 < N)
    (wf : GatherDims.WF ⟨1, ![N]⟩ ⟨2, ![E, 1]⟩ ⟨1, ![E]⟩ [] [0] [] [0] [] 1 ![1])
    (x : (⟨1, ![N]⟩ : Shape).Idx → α) (S : IVec ⟨2, ![E, 1]⟩ w) (e : Fin E) :
    Host.gather (vecGatherDims N E wf) x S (ix1 e) = x (ix1 (srcRow hN S e)) := by
  unfold Host.gather
  congr 1
  funext a
  refine Fin.ext ?_
  obtain rfl : a = (0 : Fin 1) := Subsingleton.elim _ _
  show (vecGatherDims N E wf).start (ix1 e) S 0 + (vecGatherDims N E wf).batchCoord (ix1 e) 0
    + (vecGatherDims N E wf).offCoord (ix1 e) 0 = _
  rw [GatherDims.batchCoord_eq_zero _ _ _ List.not_mem_nil]
  rw [GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e)
      ⟨List.idxOf (0 : Fin 1) (vecGatherDims N E wf).startIndexMap,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- THE VECTOR GATHER READ AT `e`: the vector at `srcRow S e` (the start index `S[e, 0]`, read signed and clamped
    into `[0, N − 1]`). -/
theorem gather_vec_apply {α : Type} {g : GatherDims ⟨1, ![N]⟩ ⟨2, ![E, 1]⟩ ⟨1, ![E]⟩} (hg : IsVecGather g)
    (hN : 0 < N) (x : (⟨1, ![N]⟩ : Shape).Idx → α) (S : IVec ⟨2, ![E, 1]⟩ w) (e : Fin E) :
    Host.gather g x S (ix1 e) = x (ix1 (srcRow hN S e)) := by
  obtain ⟨od, cs, ob, sb, sim, ivd, ss, wf⟩ := g
  obtain ⟨h1, h2, h3, h4, h5, h6, h7⟩ := hg
  dsimp only at h1 h2 h3 h4 h5 h6 h7
  subst h1 h2 h3 h4 h5 h6 h7
  exact gather_vecDims_apply hN wf x S e

end Cert.VecGather

end
-- ==== Proof.LibGcnLayer.lean ====
/-
  ONE GRAPH-CONVOLUTION LAYER, TWO WAYS (a general theorem: any extents, any records of the row-gather / row-scatter form).

  A node table `h : [N, C]` is gathered at the edges' sources and summed into the edges' targets. One program first
  scales row `n` of the table by the node's normaliser `d n` (the table `hs`), sums, and scales the summed row `n` by
  `d n` once more; the other multiplies every gathered row by the product of its two ends' normalisers and then sums.
  Entry by entry both are a sum over the edges `e` that land on the row:
      d n · Σ_e h[src e, c] · d (src e)   =   Σ_e h[src e, c] · (d (src e) · d (dst e)),
  because an edge that lands on `n` has target `n`, and because `d n` is non-negative and not `+∞`, so it distributes
  over the sum whatever the summands are.
-/
import proofs.«179346_j17454747091291_2_alg».proof.Proof.LibRowGatherScatter
import proofs.«179346_j17454747091291_2_alg».proof.Proof.LibVecGather
import proofs.«179346_j17454747091291_2_alg».proof.Proof.LibGcnLaw
import Idealize.ShloMosaic.Lib.Pipeline.Value
import Idealize.ShloMosaic.Lib.ValueIdx
import Idealize.ShloMosaic.Lib.Affine

noncomputable section

open scoped BigOperators

namespace Cert.GcnLayer

open Idealize.ShloMosaic Idealize.ShloMosaic.ValueIdx Cert.RowGS Cert.VecGather

variable {N E C : Nat}

/-- An edge that lands on node `n` has a non-negative target index, so wrapping negative indices round leaves it alone
    and clamping it into range gives `n` again. -/
theorem wrapped_target (hN : 0 < N) (D Sd : IVec ⟨2, ![E, 1]⟩ 32) (k : BitVec 32) (e : Fin E) (n : Fin N)
    (hw : Sd (ix2 e (0 : Fin 1)) = Scalar.select (IntOp.cmpi .slt (D (ix2 e (0 : Fin 1))) 0#32)
      (IntOp.addi (D (ix2 e (0 : Fin 1))) k) (D (ix2 e (0 : Fin 1))))
    (hl : Lands D e n) : srcRow hN Sd e = n := by
  have hx : (D (ix2 e (0 : Fin 1))).toInt = (n.val : Int) := hl
  have hc : ¬ IntOp.cmpi .slt (D (ix2 e (0 : Fin 1))) 0#32 = 1#1 := by
    rw [IntOp.cmpi_slt, hx]
    have : (0#32 : BitVec 32).toInt = 0 := by decide
    rw [this]
    omega
  have hs : Sd (ix2 e (0 : Fin 1)) = D (ix2 e (0 : Fin 1)) := by
    rw [hw]; unfold Scalar.select; exact if_neg hc
  apply Fin.ext
  show min (Sd (ix2 e (0 : Fin 1))).toInt.toNat (N - 1) = n.val
  rw [hs, hx]
  have hn : n.val < N := n.isLt
  simp only [Int.toNat_natCast]
  omega

/-- THE LAYER THEOREM. -/
theorem layer_eq (hN : 0 < N)
    {gd gd' : GatherDims ⟨2, ![N, C]⟩ ⟨2, ![E, 1]⟩ ⟨2, ![E, C]⟩} (hgd : IsRowGather gd) (hgd' : IsRowGather gd')
    {sd sd' : ScatterDims ⟨2, ![N, C]⟩ ⟨2, ![E, 1]⟩ ⟨2, ![E, C]⟩} (hsd : IsRowScatter sd) (hsd' : IsRowScatter sd')
    (zeros zeros' : FVec Ideal ⟨2, ![N, C]⟩ .f32) (hz : ∀ i, zeros i = 0) (hz' : ∀ i, zeros' i = 0)
    (D S Sd : IVec ⟨2, ![E, 1]⟩ 32)
    (hSd : ∀ (e : Fin E) (n : Fin N), Lands D e n → srcRow hN Sd e = n)
    (d : (⟨1, ![N]⟩ : Shape).Idx → EReal) (hd0 : ∀ n, 0 ≤ d (ix1 n)) (hdt : ∀ n, d (ix1 n) ≠ ⊤)
    (dcol : FVec Ideal ⟨2, ![N, C]⟩ .f32) (hdcol : ∀ n c, dcol (ix2 n c) = d (ix1 n))
    (nrm : FVec Ideal ⟨2, ![E, C]⟩ .f32)
    (hnrm : ∀ e c, nrm (ix2 e c) = d (ix1 (srcRow hN S e)) * d (ix1 (srcRow hN Sd e)))
    {φ : FTy} (hφ : φ.bits < (FTy.f32).bits) (hs : FVec Ideal ⟨2, ![N, C]⟩ φ) (h : FVec Ideal ⟨2, ![N, C]⟩ .f32)
    (hh : ∀ n c, (hs (ix2 n c) : EReal) = h (ix2 n c) * d (ix1 n)) :
    mulf dcol (Host.scatterAdd sd zeros D (extf .f32 (Host.gather gd hs S) hφ))
      = Host.scatterAdd sd' zeros' D (mulf (Host.gather gd' h S) nrm) := by
  funext i
  obtain ⟨n, c, rfl⟩ : ∃ (n : Fin N) (c : Fin C), i = ix2 n c := ⟨i 0, i 1, eq_ix2 i⟩
  rw [mulf_apply, hdcol, scatterAdd_row_apply hsd, scatterAdd_row_apply hsd', hz, hz']
  have hl : ∀ e ∈ Finset.univ.filter (fun e : Fin E => Lands D e n),
      (extf .f32 (Host.gather gd hs S) hφ) (ix2 e c) = h (ix2 (srcRow hN S e) c) * d (ix1 (srcRow hN S e)) := by
    intro e _
    rw [extf_apply, gather_row_apply hgd hN]
    exact hh _ _
  have hr : ∀ e ∈ Finset.univ.filter (fun e : Fin E => Lands D e n),
      (mulf (Host.gather gd' h S) nrm) (ix2 e c)
        = h (ix2 (srcRow hN S e) c) * (d (ix1 (srcRow hN S e)) * d (ix1 n)) := by
    intro e he
    rw [mulf_apply, gather_row_apply hgd' hN, hnrm, hSd e n (Finset.mem_filter.mp he).2]
  rw [Finset.sum_congr rfl hl, Finset.sum_congr rfl hr]
  exact Cert.GcnLaw.layer _ _ (hd0 n) (hdt n) _ _

end Cert.GcnLayer

end
-- ==== Proof.LibBroadcast.lean ====
/-
  BROADCASTS BY DIMENSION MAP, READ AT ONE ENTRY (general lemmas: any extents, any element type).

  * a vector `[E]` broadcast to the column `[E, 1]` along axis 0: the entry at `(e, 0)` is the vector's entry `e`;
  * a column `[N, 1]` broadcast to `[N, C]` along axes (0, 1): the entry at `(n, c)` is the column's entry at row `n`;
  * a vector `[C]` broadcast to the row `[1, C]` along axis 1 and then down `N` rows: the entry at `(n, c)` is the
    vector's entry `c`;
  * a rank-0 value broadcast over any shape: every entry is that value.
  (An operand axis of extent one is read at coordinate zero, so the extents that are not unit axes are assumed `≠ 1`.)
-/
import Idealize.ShloMosaic.Lib.Pipeline.Value
import Idealize.ShloMosaic.Lib.ValueIdx

noncomputable section

namespace Cert.Bcast

open Idealize.ShloMosaic Idealize.ShloMosaic.ValueIdx

/-- A vector as a column. -/
theorem col_apply {α : Type} {E : Nat} (hE : E ≠ 1) (x : (⟨1, ![E]⟩ : Shape).Idx → α)
    (h : (⟨1, ![E]⟩ : Shape).BroadcastsInDim ⟨2, ![E, 1]⟩ ![0]) (e : Fin E) (u : Fin 1) :
    broadcastInDim ⟨2, ![E, 1]⟩ ![0] h x (ix2 e u) = x (ix1 e) :=
  broadcastInDim_apply ![0] h x (ix2 e u) (ix1 e) (fun a => by
    match a with
    | ⟨0, _⟩ =>
      show e.val = if E = 1 then 0 else e.val
      rw [if_neg hE])

/-- A column repeated across `C` columns. -/
theorem rows_of_col_apply {α : Type} {N C : Nat} (hN : N ≠ 1) (x : (⟨2, ![N, 1]⟩ : Shape).Idx → α)
    (h : (⟨2, ![N, 1]⟩ : Shape).BroadcastsInDim ⟨2, ![N, C]⟩ ![0, 1]) (n : Fin N) (c : Fin C) :
    broadcastInDim ⟨2, ![N, C]⟩ ![0, 1] h x (ix2 n c) = x (ix2 n (0 : Fin 1)) :=
  broadcastInDim_apply ![0, 1] h x (ix2 n c) (ix2 n (0 : Fin 1)) (fun a => by
    match a with
    | ⟨0, _⟩ =>
      show n.val = if N = 1 then 0 else n.val
      rw [if_neg hN]
    | ⟨1, _⟩ =>
      show (0 : ℕ) = if (1 : ℕ) = 1 then 0 else c.val
      rw [if_pos rfl])

/-- A bias vector laid out as a row and repeated down `N` rows. -/
theorem bias_rows_apply {α : Type} {N C : Nat} (hC : C ≠ 1) (b : (⟨1, ![C]⟩ : Shape).Idx → α)
    (h1 : (⟨1, ![C]⟩ : Shape).BroadcastsInDim ⟨2, ![1, C]⟩ ![1])
    (h2 : (⟨2, ![1, C]⟩ : Shape).BroadcastsInDim ⟨2, ![N, C]⟩ ![0, 1]) (n : Fin N) (c : Fin C) :
    broadcastInDim ⟨2, ![N, C]⟩ ![0, 1] h2 (broadcastInDim ⟨2, ![1, C]⟩ ![1] h1 b) (ix2 n c) = b (ix1 c) :=
  (broadcastInDim_apply ![0, 1] h2 _ (ix2 n c) (ix2 (0 : Fin 1) c) (fun a => by
    match a with
    | ⟨0, _⟩ =>
      show (0 : ℕ) = if (1 : ℕ) = 1 then 0 else n.val
      rw [if_pos rfl]
    | ⟨1, _⟩ =>
      show c.val = if C = 1 then 0 else c.val
      rw [if_neg hC])).trans
  (broadcastInDim_apply ![1] h1 b (ix2 (0 : Fin 1) c) (ix1 c) (fun a => by
    match a with
    | ⟨0, _⟩ =>
      show c.val = if C = 1 then 0 else c.val
      rw [if_neg hC]))

/-- A rank-0 value broadcast over a shape. -/
theorem scalar_apply {α : Type} {s : Shape} (x : (⟨0, ![]⟩ : Shape).Idx → α)
    (h : (⟨0, ![]⟩ : Shape).BroadcastsInDim s ![]) (i : s.Idx) :
    broadcastInDim s ![] h x i = x ix0 :=
  broadcastInDim_apply (s := ⟨0, ![]⟩) ![] h x i ix0 (fun a => a.elim0)

end Cert.Bcast

end
-- ==== Proof.LibAcross.lean ====
/-
  A COLUMN REPEATED ACROSS THE LANES (general: any extents, any element type, no program needed).

  For a column `x` of shape `[N, 1]`, `across x` is the `[N, C]` array whose entry `(n, l)` is `x (n, 0)`: every lane
  of row `n` holds the column's entry of that row. The two ways a program spells this array are both it: the vector
  unit's `vector.broadcast` from `[N, 1]` to `[N, C]`, and StableHLO's `broadcast_in_dim` along axes (0, 1)
  (for `N ≠ 1`; a unit axis of the operand is read at coordinate zero).
-/
import proofs.«179346_j17454747091291_2_alg».proof.Proof.LibBroadcast
import proofs.«179346_j17454747091291_2_alg».proof.Proof.LibColumn

noncomputable section

namespace Cert.Across

open Idealize.ShloMosaic Idealize.ShloMosaic.ValueIdx

variable {α : Type} {N C : ℕ}

/-- The column `x` repeated across `C` lanes: entry `(n, l)` is `x (n, 0)`. -/
def across (x : (⟨2, ![N, 1]⟩ : Shape).Idx → α) : (⟨2, ![N, C]⟩ : Shape).Idx → α :=
  fun i => x (ix2 (i 0 : Fin N) (0 : Fin 1))

/-- Read at coordinates. -/
theorem across_apply (x : (⟨2, ![N, 1]⟩ : Shape).Idx → α) (n : Fin N) (l : Fin C) :
    across (C := C) x (ix2 n l) = x (ix2 n (0 : Fin 1)) := rfl

/-- The vector unit's broadcast of a column is the column repeated across the lanes. -/
theorem broadcastTo_eq_across (x : (⟨2, ![N, 1]⟩ : Shape).Idx → α)
    (h : (⟨2, ![N, 1]⟩ : Shape).Broadcasts ⟨2, ![N, C]⟩) :
    broadcastTo ⟨2, ![N, C]⟩ x h = across x := by
  funext i
  obtain ⟨n, l, rfl⟩ : ∃ (n : Fin N) (l : Fin C), i = ix2 n l := ⟨i 0, i 1, eq_ix2 i⟩
  exact Cert.Column.broadcastTo_a1_ab_apply x h n l

/-- StableHLO's broadcast of a column along axes (0, 1) is the column repeated across the lanes. -/
theorem broadcastInDim_eq_across (hN : N ≠ 1) (x : (⟨2, ![N, 1]⟩ : Shape).Idx → α)
    (h : (⟨2, ![N, 1]⟩ : Shape).BroadcastsInDim ⟨2, ![N, C]⟩ ![0, 1]) :
    broadcastInDim ⟨2, ![N, C]⟩ ![0, 1] h x = across x := by
  funext i
  obtain ⟨n, l, rfl⟩ : ∃ (n : Fin N) (l : Fin C), i = ix2 n l := ⟨i 0, i 1, eq_ix2 i⟩
  exact Cert.Bcast.rows_of_col_apply hN x h n l

end Cert.Across

end
-- ==== Proof.Bridge.lean ====
/-
  THE TWO PROGRAMS COMPUTE ONE FUNCTION.

  Write `d n` for the normaliser of node `n` (`1/√deg n` where the degree is positive, `0` elsewhere), `src e` for
  edge `e`'s source with a negative index wrapped round, `dst e` for its target. Both programs compute `d`, `src` and
  the raw targets by the same operations of the edge list.

  The reference forms, per layer, the table `h = x·W`, gathers its rows at the sources, multiplies the row of edge `e`
  by `d (src e) · d (dst e)`, sums the rows into the targets and adds the bias. The kernel program scales row `n` of
  the table by `d n` before the gather, sums the gathered rows as they are, and multiplies the summed row `n` by `d n`
  afterwards — inside its second call for the first layer, in the last stretch for the second. By the layer law
  (a non-negative factor other than `+∞` distributes over a sum of extended reals; an edge that lands on `n` has
  target `n`) the two agree layer by layer:
    · first layer: the aggregated table times `d n` is the reference's sum, so `agg₁[n, q] · d n + b₁ q` is the
      reference's pre-activation, and the second call's rows are the reference's hidden rows;
    · second layer: the second call's table is `(hidden·W₂)[n, ·] · d n`, and the law applies again.
  Both products are plain sums over the contracted coordinate; the changes of float format are the identity.
-/
import proofs.«179346_j17454747091291_2_alg».proof.Proof.KernelReadB
import proofs.«179346_j17454747091291_2_alg».proof.Proof.LibScaledLayer
import proofs.«179346_j17454747091291_2_alg».proof.Proof.LibGcnLayer
import proofs.«179346_j17454747091291_2_alg».proof.Proof.LibBroadcast
import proofs.«179346_j17454747091291_2_alg».proof.Proof.LibColumn
import proofs.«179346_j17454747091291_2_alg».proof.Proof.LibAcross
import proofs.«179346_j17454747091291_2_alg».proof.Proof.LibPlainDot
import Idealize.ShloMosaic.Lib.ValueLayout

set_option maxRecDepth 16384

noncomputable section

open scoped BigOperators

namespace Cert.Bridge

open Cert.KernelIdeal Cert.KernelIdeal.Gen Cert.KernelIdeal.ReadBack Cert.ReferenceIdeal.ReadP
open Idealize.ShloMosaic Idealize.ShloMosaic.TcCoe Idealize.ShloMosaic.ValueIdx Idealize.SL.Sem
open Cert.RowGS

theorem nodes_pos : 0 < 100000 := by decide

/-! ## The normaliser -/

/-- The normaliser vector's entry is the normaliser of the node's degree. -/
theorem norm_eq (a1 : IVec S2x1600000 32) (n : Fin 100000) :
    val_main_v14 (F := Ideal) a1 (ix1 n) = Cert.GcnLaw.normaliser (val_main_v10 (F := Ideal) a1 (ix1 n)) := by
  rw [val_main_v14_apply, val_main_v12_apply, val_main_v13_apply, val_main_v11_apply, val_main_call0_v1_apply,
    val_main_call0_v0_apply, val_main_cst_1_apply, val_main_cst_2_apply, Ideal.ofBits_def, Ideal.ofBits_zero_f32]
  generalize val_main_v10 (F := Ideal) a1 (ix1 n) = x
  exact Cert.GcnLaw.select_eq_normaliser x

theorem norm_nonneg (a1 : IVec S2x1600000 32) (n : Fin 100000) : 0 ≤ val_main_v14 (F := Ideal) a1 (ix1 n) := by
  rw [norm_eq]; exact Cert.GcnLaw.normaliser_nonneg _

theorem norm_ne_top (a1 : IVec S2x1600000 32) (n : Fin 100000) : val_main_v14 (F := Ideal) a1 (ix1 n) ≠ ⊤ := by
  rw [norm_eq]; exact Cert.GcnLaw.normaliser_ne_top _

/-! ## The index columns -/

/-- An edge the scatter lands on row `n` still reads `n` in the wrapped target column. -/
theorem wrapped (a1 : IVec S2x1600000 32) (e : Fin 1700000) (n : Fin 100000)
    (hl : Lands (val_main_v42 (F := Ideal) a1) e n) : srcRow nodes_pos (val_main_v27 (F := Ideal) a1) e = n :=
  Cert.GcnLayer.wrapped_target nodes_pos (val_main_v42 (F := Ideal) a1) (val_main_v27 (F := Ideal) a1) 100000#32 e n (by
    rw [val_main_v27_apply, val_main_v26_apply, val_main_v23_apply, val_main_v25_apply, val_main_v22_apply,
      val_main_v24_apply, val_main_c_4_apply, val_main_c_5_apply, val_main_v42_apply]) hl

/-- The per-edge product of the two ends' normalisers, repeated across 128 lanes, at `(e, l)`. -/
theorem nrm128 (a1 : IVec S2x1600000 32) (e : Fin 1700000) (l : Fin 128) :
    val_main_v39 (F := Ideal) a1 (ix2 e l)
      = val_main_v14 (F := Ideal) a1 (ix1 (srcRow nodes_pos (val_main_v36 (F := Ideal) a1) e))
        * val_main_v14 (F := Ideal) a1 (ix1 (srcRow nodes_pos (val_main_v27 (F := Ideal) a1) e)) := by
  unfold val_main_v39 val_main_v38
  rw [Cert.Bcast.rows_of_col_apply (by decide), Cert.Bcast.col_apply (by decide), val_main_v29_apply]
  unfold val_main_v21 val_main_v28
  rw [Cert.VecGather.gather_vec_apply ⟨rfl, rfl, rfl, rfl, rfl, rfl, rfl⟩ nodes_pos, Cert.VecGather.gather_vec_apply ⟨rfl, rfl, rfl, rfl, rfl, rfl, rfl⟩ nodes_pos]
  rfl

/-- The same across 64 lanes. -/
theorem nrm64 (a1 : IVec S2x1600000 32) (e : Fin 1700000) (l : Fin 64) :
    val_main_v61 (F := Ideal) a1 (ix2 e l)
      = val_main_v14 (F := Ideal) a1 (ix1 (srcRow nodes_pos (val_main_v36 (F := Ideal) a1) e))
        * val_main_v14 (F := Ideal) a1 (ix1 (srcRow nodes_pos (val_main_v27 (F := Ideal) a1) e)) := by
  unfold val_main_v61 val_main_v60
  rw [Cert.Bcast.rows_of_col_apply (by decide), Cert.Bcast.col_apply (by decide), val_main_v29_apply]
  unfold val_main_v21 val_main_v28
  rw [Cert.VecGather.gather_vec_apply ⟨rfl, rfl, rfl, rfl, rfl, rfl, rfl⟩ nodes_pos, Cert.VecGather.gather_vec_apply ⟨rfl, rfl, rfl, rfl, rfl, rfl, rfl⟩ nodes_pos]
  rfl

variable (m : (ℓ : Loc nD τ sig) → Buf (Elt Ideal) ℓ) (c : Dev nD)

/-- The normaliser column at `(n, 0)`. -/
theorem normCol_apply (n : Fin 100000) (u : Fin 1) :
    normCol m c (ix2 n u) = val_main_v14 (F := Ideal) (edges m c) (ix1 n) :=
  Cert.Column.shapeCast_a_a1_apply _ _ _ _

/-! ## The first layer -/

/-- The first call's table is the reference's product, row `n` scaled by `d n`. -/
theorem table1_apply (n : Fin 100000) (l : Fin 128) :
    table1 m c (ix2 n l)
      = val_main_v30 (F := Ideal) (feats m c) (w1 m c) (ix2 n l) * val_main_v14 (F := Ideal) (edges m c) (ix1 n) := by
  show Cert.KernelIdeal.Region0.scaledProduct (feats m c) (weights1 m c) (normCol m c) (ix2 n l) = _
  rw [Cert.KernelIdeal.Region0.scaledProduct_apply, normCol_apply]
  unfold val_main_v30
  rw [Cert.PlainDot.dotGeneral_apply ⟨rfl, rfl, rfl, rfl, rfl, rfl⟩]
  rfl

/-- THE FIRST LAYER: the aggregated table, row `n` times `d n`, is the reference's sum of doubly scaled messages. -/
theorem layer1 :
    mulf (agg1 m c) (Cert.Across.across (C := 128) (normCol m c))
      = val_main_v43 (F := Ideal) (feats m c) (edges m c) (w1 m c) :=
  Cert.ScaledLayer.layer_right nodes_pos
    (gd := gather_S100000x128_S1700000x1_S1700000x128_1_0_n_n_0_1_1128)
    (gd' := Cert.ReferenceIdeal.gather_S100000x128_S1700000x1_S1700000x128_1_0_n_n_0_1_1128) ⟨rfl, rfl, rfl, rfl, rfl, rfl, rfl⟩ ⟨rfl, rfl, rfl, rfl, rfl, rfl, rfl⟩
    (sd := scatter_S100000x128_S1700000x1_S1700000x128_1_0_0_1)
    (sd' := Cert.ReferenceIdeal.scatter_S100000x128_S1700000x1_S1700000x128_1_0_0_1) ⟨rfl, rfl, rfl, rfl⟩ ⟨rfl, rfl, rfl, rfl⟩
    (broadcastInDim S100000x128 ![] bcast_S_S100000x128 (constant (F := Ideal) S_ .f32 0x00000000#32))
    (val_main_v41 (F := Ideal))
    (fun i => by rw [Cert.Bcast.scalar_apply, constant_apply, Ideal.ofBits_zero_f32])
    (fun i => by rw [val_main_v41_apply, val_main_cst_8_apply, Ideal.ofBits_def, Ideal.ofBits_zero_f32])
    (val_main_v42 (F := Ideal) (edges m c)) (val_main_v36 (F := Ideal) (edges m c)) (val_main_v27 (F := Ideal) (edges m c))
    (fun e n hl => wrapped (edges m c) e n hl)
    (val_main_v14 (F := Ideal) (edges m c)) (norm_nonneg (edges m c)) (norm_ne_top (edges m c))
    (Cert.Across.across (C := 128) (normCol m c))
    (fun n l => by rw [Cert.Across.across_apply, normCol_apply])
    (val_main_v39 (F := Ideal) (edges m c)) (nrm128 (edges m c))
    (table1 m c) (val_main_v30 (F := Ideal) (feats m c) (w1 m c)) (table1_apply m c)

/-! ## Between the layers -/

/-- The reference's hidden entry is the leaky activation of the kernel program's pre-activation. -/
theorem hidden_apply (n : Fin 100000) (q : Fin 128) :
    val_main_v51 (F := Ideal) (feats m c) (edges m c) (w1 m c) (b1 m c) (ix2 n q)
      = Cert.KernelIdeal.Region1.leaky
          (agg1 m c (ix2 n q) * normCol m c (ix2 n (0 : Fin 1)) + biasRow1 m c (ix2 (0 : Fin 1) q)) := by
  have h43 : val_main_v43 (F := Ideal) (feats m c) (edges m c) (w1 m c) (ix2 n q)
      = agg1 m c (ix2 n q) * normCol m c (ix2 n (0 : Fin 1)) := by
    rw [← layer1 m c, mulf_apply, Cert.Across.across_apply]
  have h45 : val_main_v45 (F := Ideal) (b1 m c) (ix2 n q) = b1 m c (ix1 q) := by
    unfold val_main_v45 val_main_v44
    exact Cert.Bcast.bias_rows_apply (by decide) _ _ _ _ _
  have hb : biasRow1 m c (ix2 (0 : Fin 1) q) = b1 m c (ix1 q) := shapeCast_a_1a_apply _ _ _ _
  rw [val_main_v51_apply, val_main_v48_apply, val_main_v50_apply, val_main_v47_apply, val_main_v49_apply,
    val_main_cst_9_apply, val_main_cst_10_apply, val_main_v46_apply, h43, h45, hb]
  rfl

/-- The second call's table is the reference's second product, row `n` scaled by `d n`. -/
theorem table2_apply (n : Fin 100000) (l : Fin 64) :
    table2 m c (ix2 n l)
      = val_main_v52 (F := Ideal) (feats m c) (edges m c) (w1 m c) (b1 m c) (w2 m c) (ix2 n l)
        * val_main_v14 (F := Ideal) (edges m c) (ix1 n) := by
  show Cert.KernelIdeal.Region1.hiddenProduct (agg1 m c) (normCol m c) (biasRow1 m c) (weights2 m c) (ix2 n l) = _
  rw [Cert.KernelIdeal.Region1.hiddenProduct_apply, ← normCol_apply m c n (0 : Fin 1)]
  unfold val_main_v52
  rw [Cert.PlainDot.dotGeneral_apply ⟨rfl, rfl, rfl, rfl, rfl, rfl⟩]
  refine congrArg (fun s => s * normCol m c (ix2 n (0 : Fin 1))) ?_
  refine Finset.sum_congr rfl fun q _ => ?_
  rw [hidden_apply m c n q]
  rfl

/-! ## The second layer, and the result -/

/-- THE SECOND LAYER. (The reference recomputes the source and target columns for its second layer by the same
    operations: its stages `v58`, `v64` are its stages `v36`, `v42`.) -/
theorem layer2 :
    mulf (agg2 m c) (broadcastInDim S100000x64 ![0, 1] bcast_S100000x1_S100000x64_0_1 (normCol m c))
      = val_main_v65 (F := Ideal) (feats m c) (edges m c) (w1 m c) (b1 m c) (w2 m c) := by
  have key := Cert.ScaledLayer.layer_right nodes_pos
    (gd := gather_S100000x64_S1700000x1_S1700000x64_1_0_n_n_0_1_164)
    (gd' := Cert.ReferenceIdeal.gather_S100000x64_S1700000x1_S1700000x64_1_0_n_n_0_1_164) ⟨rfl, rfl, rfl, rfl, rfl, rfl, rfl⟩ ⟨rfl, rfl, rfl, rfl, rfl, rfl, rfl⟩
    (sd := scatter_S100000x64_S1700000x1_S1700000x64_1_0_0_1)
    (sd' := Cert.ReferenceIdeal.scatter_S100000x64_S1700000x1_S1700000x64_1_0_0_1) ⟨rfl, rfl, rfl, rfl⟩ ⟨rfl, rfl, rfl, rfl⟩
    (broadcastInDim S100000x64 ![] bcast_S_S100000x64 (constant (F := Ideal) S_ .f32 0x00000000#32))
    (val_main_v63 (F := Ideal))
    (fun i => by rw [Cert.Bcast.scalar_apply, constant_apply, Ideal.ofBits_zero_f32])
    (fun i => by rw [val_main_v63_apply, val_main_cst_13_apply, Ideal.ofBits_def, Ideal.ofBits_zero_f32])
    (val_main_v42 (F := Ideal) (edges m c)) (val_main_v36 (F := Ideal) (edges m c)) (val_main_v27 (F := Ideal) (edges m c))
    (fun e n hl => wrapped (edges m c) e n hl)
    (val_main_v14 (F := Ideal) (edges m c)) (norm_nonneg (edges m c)) (norm_ne_top (edges m c))
    (broadcastInDim S100000x64 ![0, 1] bcast_S100000x1_S100000x64_0_1 (normCol m c))
    (fun n l => by rw [Cert.Bcast.rows_of_col_apply (by decide), normCol_apply])
    (val_main_v61 (F := Ideal) (edges m c)) (nrm64 (edges m c))
    (table2 m c) (val_main_v52 (F := Ideal) (feats m c) (edges m c) (w1 m c) (b1 m c) (w2 m c)) (table2_apply m c)
  have h58 : val_main_v58 (F := Ideal) (edges m c) = val_main_v36 (F := Ideal) (edges m c) := rfl
  have h64 : val_main_v64 (F := Ideal) (edges m c) = val_main_v42 (F := Ideal) (edges m c) := rfl
  unfold val_main_v65 val_main_v62 val_main_v59
  rw [h58, h64]
  exact key

/-- THE RESULT: the kernel program's result term is the reference's last stage of the same arguments. -/
theorem result_eq :
    result m c = val_main_v68 (F := Ideal) (feats m c) (edges m c) (w1 m c) (b1 m c) (w2 m c) (b2 m c) := by
  show addf (mulf (agg2 m c) (broadcastInDim S100000x64 ![0, 1] bcast_S100000x1_S100000x64_0_1 (normCol m c))) _ = _
  rw [layer2 m c]
  unfold val_main_v68 val_main_v67 val_main_v66
  rfl

end Cert.Bridge

end
-- ==== Proof.lean ====
/-
  A two-layer graph convolution: a kernel program with two tiled calls against its plain reference.

  Both programs take node features `x : [100000, 128]`, an edge list, two weight matrices and two biases. Both add one
  self-loop per node, count each node's degree at the edges' targets, and form the normaliser `d n = 1/√deg n` where
  the degree is positive, `0` elsewhere. A layer is: multiply the node table by the weights, gather the rows at the
  edges' sources, sum them into the edges' targets weighted by `d (src) · d (dst)`, add the bias; between the two
  layers a leaky activation is applied.

  The reference multiplies every gathered row by the product of the two normalisers. The kernel program never forms
  that product: its first call scales row `n` of `x·W₁` by `d n`; the rows are gathered and summed as they are; its
  second call scales the summed row `n` by `d n`, adds the bias, activates, multiplies by `W₂` and scales by `d n`
  again; after the second gather and sum the last stretch scales by `d n` once more and adds the second bias.
  The two agree on the extended reals because `d n` is non-negative and never `+∞`, so it distributes over the sum
  of the messages landing on `n` whatever they are, and because an edge that lands on `n` has target `n` even after
  negative indices are wrapped round. No finiteness of the inputs is used.

  Parts: the kernel program's run with every buffer kept (KernelRun); each call's output array as one function of
  the arrays it finds (Region0Value, Region1Value); the result buffer read back through the program to one term of
  the arguments (KernelReadA, KernelReadB); the layer law (LibScaledLayer, over the general gather / scatter lemmas);
  the two programs' terms are one function (Bridge). The reference's run and its stages are RefRunP / RefReadP.
  The ideal pass rewrote nothing, so the idealization claim is trivial.
-/
import proofs.«179346_j17454747091291_2_alg».proof.Defs
import proofs.«179346_j17454747091291_2_alg».proof.Proof.Gen.Kernel
import proofs.«179346_j17454747091291_2_alg».proof.Proof.Gen.Kernel.Skeleton
import proofs.«179346_j17454747091291_2_alg».proof.Proof.Gen.Kernel.Launch
import proofs.«179346_j17454747091291_2_alg».proof.Proof.Gen.Kernel.Points
import proofs.«179346_j17454747091291_2_alg».proof.Proof.Gen.Kernel.Frame
import proofs.«179346_j17454747091291_2_alg».proof.Proof.Gen.KernelIdeal
import proofs.«179346_j17454747091291_2_alg».proof.Proof.Gen.KernelIdeal.Skeleton
import proofs.«179346_j17454747091291_2_alg».proof.Proof.Gen.KernelIdeal.Launch
import proofs.«179346_j17454747091291_2_alg».proof.Proof.Gen.KernelIdeal.Points
import proofs.«179346_j17454747091291_2_alg».proof.Proof.Gen.KernelIdeal.Frame
import proofs.«179346_j17454747091291_2_alg».proof.Proof.Gen.ReferenceIdeal
import proofs.«179346_j17454747091291_2_alg».proof.Proof.Gen.Pre_finite_inputs
import proofs.«179346_j17454747091291_2_alg».proof.Proof.RefRunP
import proofs.«179346_j17454747091291_2_alg».proof.Proof.RefReadP
import proofs.«179346_j17454747091291_2_alg».proof.Proof.KernelRun
import proofs.«179346_j17454747091291_2_alg».proof.Proof.Bridge
import Idealize.ShloMosaic.Adequacy
import Idealize.ShloMosaic.Init

noncomputable section

namespace Cert.Proof

open Idealize.ShloMosaic Idealize.SL.Sem

/-- The word-level program runs and leaves its arguments as launched. -/
theorem frame_kernel : Cert.frame_Kernel :=
  fun m ρ _ => Cert.Kernel.Gen.frame m ρ

/-- So does its idealization. -/
theorem frame_kernelIdeal : Cert.frame_KernelIdeal :=
  fun m ρ _ => Cert.KernelIdeal.Gen.frame m ρ

/-- The reference is a straight line of host operations: its run, with the result dropped. -/
theorem frame_reference : Cert.frame_ReferenceIdeal :=
  fun m ρ _ => (θ_run Cert.ReferenceIdeal.defs _ _).mono (fun _ h c => (h c).2)
    (Cert.ReferenceIdeal.ValueP.run (F := Ideal) m ρ)

/-- From memories that agree on the arguments both programs end with the same result array: the kernel program's
    result buffer ends at its last boundary's contents, which is one term of the arguments; the reference's ends at its
    last stage of the arguments; the two are one function. -/
theorem algebraic : Cert.algebraic_KernelIdeal_ReferenceIdeal := by
  intro m ρ m' ρ' _ hagree
  refine ⟨fun c => Cert.KernelIdeal.ReadBack.result m c, ?_, ?_⟩
  · exact (θ_run Cert.KernelIdeal.defs _ _).mono
      (fun r h c => ⟨(h c).1.trans (Cert.KernelIdeal.ReadBack.W7_v45 m ρ c), (h c).2⟩)
      (Cert.KernelIdeal.RunValue.run_fold (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v68_eq, (hagree c).1, (hagree c).2.1, (hagree c).2.2.1, (hagree c).2.2.2.1,
      (hagree c).2.2.2.2.1, (hagree c).2.2.2.2.2]
    exact (Cert.Bridge.result_eq m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
